-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_inv_denom" .f32 0xBFD55555#32 ((-8388608 / 5033165 : ℝ) : EReal)
  ∧ IdealRules.named_const.Statement Cert.KernelIdeal.κ "neg_inv_denom" .f32 0xBFD55555#32 ((-8388608 / 5033165 : ℝ) : EReal)
  ∧ IdealRules.named_const.Statement Cert.KernelIdeal.κ "neg_inv_denom" .f32 0xBFD55555#32 ((-8388608 / 5033165 : ℝ) : EReal)
  ∧ IdealRules.named_const.Statement Cert.KernelIdeal.κ "neg_inv_denom" .f32 0xBFD55555#32 ((-8388608 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x256x256 : Shape := ⟨4, ![16, 3, 256, 256]⟩
abbrev S32x3 : Shape := ⟨2, ![32, 3]⟩
abbrev S_ : Shape := ⟨0, ![]⟩

class Facts : Prop where
  bcast_S_S16x3x256x256 : S_.BroadcastsInDim S16x3x256x256 (![] : Fin 0 → Fin S16x3x256x256.rank)
  reducesTo_S16x3x256x256_S_d0_1_2_3 : S16x3x256x256.ReducesTo [0, 1, 2, 3] S_
  h_S_ : 0 < S_.numel
  bcast_S_S32x3 : S_.BroadcastsInDim S32x3 (![] : Fin 0 → Fin S32x3.rank)
  reducesTo_S32x3_S_d0_1 : S32x3.ReducesTo [0, 1] S_

variable [Facts]

def fn {F : FTy → Type} [FloatOps F] (main_arg0 : FVec F S16x3x256x256 .f32) (main_arg1 : FVec F S32x3 .f32) : IVec S_ 1 :=
  let main_v0 : FVec F S16x3x256x256 .f32 := Host.absf main_arg0
  let main_cst : FVec F S_ .f32 := constant S_ .f32 0x7F800000#32
  let main_v1 : FVec F S16x3x256x256 .f32 := broadcastInDim S16x3x256x256 ![] bcast_S_S16x3x256x256 main_cst
  let main_v2 : IVec S16x3x256x256 1 := cmpf .olt main_v0 main_v1
  let main_c : IVec S_ 1 := constantI S_ 1 1#1
  let main_v3 : IVec S_ 1 := (fun x v => Host.reduce IntOp.andi x v reducesTo_S16x3x256x256_S_d0_1_2_3 h_S_) main_v2 main_c
  let main_v4 : FVec F S32x3 .f32 := Host.absf main_arg1
  let main_cst_0 : FVec F S_ .f32 := constant S_ .f32 0x7F800000#32
  let main_v5 : FVec F S32x3 .f32 := broadcastInDim S32x3 ![] bcast_S_S32x3 main_cst_0
  let main_v6 : IVec S32x3 1 := cmpf .olt main_v4 main_v5
  let main_c_1 : IVec S_ 1 := constantI S_ 1 1#1
  let main_v7 : IVec S_ 1 := (fun x v => Host.reduce IntOp.andi x v reducesTo_S32x3_S_d0_1 h_S_) main_v6 main_c_1
  let main_v8 : IVec S_ 1 := andi main_v3 main_v7
  main_v8
-- ==== Kernel.lean ====
abbrev S16x3x256x256 : Shape := ⟨4, ![16, 3, 256, 256]⟩
abbrev S32x3 : Shape := ⟨2, ![32, 3]⟩
abbrev S16x32 : Shape := ⟨2, ![16, 32]⟩
abbrev S8x3x64x256 : Shape := ⟨4, ![8, 3, 64, 256]⟩
abbrev S8x32 : Shape := ⟨2, ![8, 32]⟩
abbrev S8x1x64x256 : Shape := ⟨4, ![8, 1, 64, 256]⟩
abbrev S8x64x256 : Shape := ⟨3, ![8, 64, 256]⟩
abbrev S8x3 : Shape := ⟨2, ![8, 3]⟩
abbrev S8 : Shape := ⟨1, ![8]⟩
abbrev S8x1 : Shape := ⟨2, ![8, 1]⟩
abbrev S1x8x1x1 : Shape := ⟨4, ![1, 8, 1, 1]⟩
abbrev S8x8x64x256 : Shape := ⟨4, ![8, 8, 64, 256]⟩
abbrev S8x8x64 : Shape := ⟨3, ![8, 8, 64]⟩
abbrev S8x8 : Shape := ⟨2, ![8, 8]⟩

abbrev nBuf : Space → Nat
  | .hbm => 3
  | .vmem => 5
  | .smem => 0
  | _ => 0

abbrev bufTy : (tb : Table) → Fin (tcTables nBuf tb) → BufTy
  | .hbm, ⟨0, _⟩ => ⟨S16x3x256x256, .f32⟩
  | .hbm, ⟨1, _⟩ => ⟨S32x3, .f32⟩
  | .hbm, ⟨2, _⟩ => ⟨S16x32, .f32⟩
  | .local _ .vmem, ⟨0, _⟩ => ⟨S8x3x64x256, .f32⟩
  | .local _ .vmem, ⟨1, _⟩ => ⟨S8x3x64x256, .f32⟩
  | .local _ .vmem, ⟨2, _⟩ => ⟨S32x3, .f32⟩
  | .local _ .vmem, ⟨3, _⟩ => ⟨S8x32, .f32⟩
  | .local _ .vmem, ⟨4, _⟩ => ⟨S8x32, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x32_S8x32_0_0 : ∀ a, (![0, 0] : Fin 2 → Nat) a + S8x32.size a ≤ S8x32.size a
  h_S8x32 : 0 < S8x32.numel
  inb_S8x3x64x256_S8x3x64x256_0_0_0_0 : ∀ a, (![0, 0, 0, 0] : Fin 4 → Nat) a + S8x3x64x256.size a ≤ S8x3x64x256.size a
  h_S8x3x64x256 : 0 < S8x3x64x256.numel
  inb_S32x3_S32x3_0_0 : ∀ a, (![0, 0] : Fin 2 → Nat) a + S32x3.size a ≤ S32x3.size a
  h_S32x3 : 0 < S32x3.numel
  slices_S8x3x64x256_o0_0_0_0_S8x1x64x256 : S8x3x64x256.Slices ![0, 0, 0, 0] S8x1x64x256
  shapeCasts_S8x1x64x256_S8x64x256 : S8x1x64x256.ShapeCasts S8x64x256
  slices_S8x3x64x256_o0_1_0_0_S8x1x64x256 : S8x3x64x256.Slices ![0, 1, 0, 0] S8x1x64x256
  slices_S8x3x64x256_o0_2_0_0_S8x1x64x256 : S8x3x64x256.Slices ![0, 2, 0, 0] S8x1x64x256
  slices_S32x3_o0_0_S8x3 : S32x3.Slices ![0, 0] S8x3
  reduces_S8x3_S8 : S8x3.Reduces [1] S8
  slices_S8x3_o0_0_S8x1 : S8x3.Slices ![0, 0] S8x1
  shapeCasts_S8x1_S8 : S8x1.ShapeCasts S8
  shapeCasts_S8x64x256_S8x1x64x256 : S8x64x256.ShapeCasts S8x1x64x256
  shapeCasts_S8_S1x8x1x1 : S8.ShapeCasts S1x8x1x1
  broadcasts_S8x1x64x256_S8x8x64x256 : S8x1x64x256.Broadcasts S8x8x64x256
  broadcasts_S1x8x1x1_S8x8x64x256 : S1x8x1x1.Broadcasts S8x8x64x256
  slices_S8x3_o0_1_S8x1 : S8x3.Slices ![0, 1] S8x1
  slices_S8x3_o0_2_S8x1 : S8x3.Slices ![0, 2] S8x1
  reduces_S8x8x64x256_S8x8x64 : S8x8x64x256.Reduces [3] S8x8x64
  reduces_S8x8x64_S8x8 : S8x8x64.Reduces [2] S8x8
  inb_S8x32_S8x8_0_0 : ∀ a, (![0, 0] : Fin 2 → Nat) a + S8x8.size a ≤ S8x32.size a
  h_S8x8 : 0 < S8x8.numel
  shapeCasts_S8x8_S8x8 : S8x8.ShapeCasts S8x8
  slices_S32x3_o8_0_S8x3 : S32x3.Slices ![8, 0] S8x3
  inb_S8x32_S8x8_0_8 : ∀ a, (![0, 8] : Fin 2 → Nat) a + S8x8.size a ≤ S8x32.size a
  slices_S32x3_o16_0_S8x3 : S32x3.Slices ![16, 0] S8x3
  inb_S8x32_S8x8_0_16 : ∀ a, (![0, 16] : Fin 2 → Nat) a + S8x8.size a ≤ S8x32.size a
  slices_S32x3_o24_0_S8x3 : S32x3.Slices ![24, 0] S8x3
  inb_S8x32_S8x8_0_24 : ∀ a, (![0, 24] : Fin 2 → Nat) a + S8x8.size a ≤ S8x32.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x64x256.size a ≤ S16x3x256x256.size a
  hwx0_0 : ∀ i : grid0.Coords, EltTy.bits .f32 = 32 ∨ (Rect.block (s := S16x3x256x256) S8x3x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x3.size a ≤ S32x3.size a
  hwx0_1 : ∀ i : grid0.Coords, EltTy.bits .f32 = 32 ∨ (Rect.block (s := S32x3) S32x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S16x32.size a
  hwx0_2 : ∀ i : grid0.Coords, EltTy.bits .f32 = 32 ∨ (Rect.block (s := S16x32) S8x32.size (cc0_transform_2 i) (hinb0_2 i)).WholeWords (EltTy.packing .f32)

variable [Facts₀]

abbrev win0_0 : Pipeline.Window sig grid0 :=
  Pipeline.Window.ofSpec (Memref.whole main_arg0) S8x3x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x256x256 : Shape := ⟨4, ![16, 3, 256, 256]⟩
abbrev S32x3 : Shape := ⟨2, ![32, 3]⟩
abbrev S16x1x3x256x256 : Shape := ⟨5, ![16, 1, 3, 256, 256]⟩
abbrev S1x32x3x1x1 : Shape := ⟨5, ![1, 32, 3, 1, 1]⟩
abbrev S16x32x3x256x256 : Shape := ⟨5, ![16, 32, 3, 256, 256]⟩
abbrev S_ : Shape := ⟨0, ![]⟩
abbrev S16x32x256x256 : Shape := ⟨4, ![16, 32, 256, 256]⟩
abbrev S16x32 : Shape := ⟨2, ![16, 32]⟩

abbrev nBuf : Space → Nat
  | .hbm => 23
  | .vmem => 0
  | .smem => 0
  | _ => 0

abbrev bufTy : (tb : Table) → Fin (tcTables nBuf tb) → BufTy
  | .hbm, ⟨0, _⟩ => ⟨S16x3x256x256, .f32⟩
  | .hbm, ⟨1, _⟩ => ⟨S32x3, .f32⟩
  | .hbm, ⟨2, _⟩ => ⟨S16x1x3x256x256, .f32⟩
  | .hbm, ⟨3, _⟩ => ⟨S1x32x3x1x1, .f32⟩
  | .hbm, ⟨4, _⟩ => ⟨S16x32x3x256x256, .f32⟩
  | .hbm, ⟨5, _⟩ => ⟨S16x32x3x256x256, .f32⟩
  | .hbm, ⟨6, _⟩ => ⟨S16x32x3x256x256, .f32⟩
  | .hbm, ⟨7, _⟩ => ⟨S16x32x3x256x256, .f32⟩
  | .hbm, ⟨8, _⟩ => ⟨S_, .f32⟩
  | .hbm, ⟨9, _⟩ => ⟨S16x32x256x256, .f32⟩
  | .hbm, ⟨10, _⟩ => ⟨S_, .f32⟩
  | .hbm, ⟨11, _⟩ => ⟨S16x32x256x256, .f32⟩
  | .hbm, ⟨12, _⟩ => ⟨S16x32x256x256, .f32⟩
  | .hbm, ⟨13, _⟩ => ⟨S16x32x256x256, .f32⟩
  | .hbm, ⟨14, _⟩ => ⟨S_, .f32⟩
  | .hbm, ⟨15, _⟩ => ⟨S16x32x256x256, .f32⟩
  | .hbm, ⟨16, _⟩ => ⟨S16x32x256x256, .f32⟩
  | .hbm, ⟨17, _⟩ => ⟨S16x32x256x256, .f32⟩
  | .hbm, ⟨18, _⟩ => ⟨S_, .f32⟩
  | .hbm, ⟨19, _⟩ => ⟨S16x32, .f32⟩
  | .hbm, ⟨20, _⟩ => ⟨S_, .f32⟩
  | .hbm, ⟨21, _⟩ => ⟨S16x32, .f32⟩
  | .hbm, ⟨22, _⟩ => ⟨S16x32, .f32⟩
  | _, _ => ⟨S16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S16x3x256x256_S16x1x3x256x256_0_2_3_4 : S16x3x256x256.BroadcastsInDim S16x1x3x256x256 (![0, 2, 3, 4] : Fin 4 → Fin S16x1x3x256x256.rank)
  bcast_S32x3_S1x32x3x1x1_1_2 : S32x3.BroadcastsInDim S1x32x3x1x1 (![1, 2] : Fin 2 → Fin S1x32x3x1x1.rank)
  bcast_S16x1x3x256x256_S16x32x3x256x256_0_1_2_3_4 : S16x1x3x256x256.BroadcastsInDim S16x32x3x256x256 (![0, 1, 2, 3, 4] : Fin 5 → Fin S16x32x3x256x256.rank)
  bcast_S1x32x3x1x1_S16x32x3x256x256_0_1_2_3_4 : S1x32x3x1x1.BroadcastsInDim S16x32x3x256x256 (![0, 1, 2, 3, 4] : Fin 5 → Fin S16x32x3x256x256.rank)
  reducesTo_S16x32x3x256x256_S16x32x256x256_d2 : S16x32x3x256x256.ReducesTo [2] S16x32x256x256
  h_S_ : 0 < S_.numel
  bcast_S_S16x32x256x256 : S_.BroadcastsInDim S16x32x256x256 (![] : Fin 0 → Fin S16x32x256x256.rank)
  reducesTo_S16x32x256x256_S16x32_d2_3 : S16x32x256x256.ReducesTo [2, 3] S16x32
  bcast_S_S16x32 : S_.BroadcastsInDim S16x32 (![] : Fin 0 → Fin S16x32.rank)

variable [Facts₀]

class Facts : Prop extends Facts₀ where

variable [Facts]
-- ==== Proof.Spec.lean ====
/-
  The mathematics both programs compute, stated once over the extended reals.

  For a pixel with channel values `u : Fin 3 → EReal` and a prototype `v : Fin 3 → EReal` the response is
  `exp (-‖u - v‖ / D)`, `D` the value of the bandwidth word `0x3F19999A`.  The reference spells the norm as
  `(Σₖ (uₖ - vₖ)²) ^ ½` (`refT`); the kernel spells the same number as
  `√(max (Σ uₖ² + Σ vₖ² - 2·Σ uₖvₖ) 0)` and multiplies by a folded constant `cN` instead of dividing (`kerT`).
  The result at batch row `b` and prototype `p` is the mean of the responses over the 256 × 256 pixels (`G`);
  the kernel accumulates it tile by tile, 64 image rows at a time, each tile's sum already scaled by `2⁻¹⁶` (`tile`).
-/
import Idealize.ShloMosaic.PureOps.Ideal
import Idealize.ShloMosaic.Lib.ValueIdx

noncomputable section

namespace Cert.Spec

open Idealize.ShloMosaic Idealize.ShloMosaic.ValueIdx

/-- The three channel values of pixel `(h, w)` of image `b`. -/
def pix (x : (⟨4, ![16, 3, 256, 256]⟩ : Shape).Idx → EReal) (b : Fin 16) (h w : Fin 256) : Fin 3 → EReal :=
  fun c => x (ix4 b c h w)

/-- The three channel values of prototype `p`. -/
def proto (P : (⟨2, ![32, 3]⟩ : Shape).Idx → EReal) (p : Fin 32) : Fin 3 → EReal :=
  fun c => P (ix2 p c)

/-- The reference's response of a pixel `u` to a prototype `v`: `exp (-(Σₖ (uₖ - vₖ)²)^½ / D)`. -/
def refT (u v : Fin 3 → EReal) : EReal :=
  Ideal.exp (Ideal.div (-(Ideal.pow (∑ k : Fin 3, (u k - v k) * (u k - v k)) (Ideal.ofBits .f32 0x3F000000#32)))
    (Ideal.ofBits .f32 0x3F19999A#32))

/-- The kernel's response: `exp (√(max (Σ uₖ² + Σ vₖ² - 2·Σ uₖvₖ) 0) · cN)`, the sums associated as the kernel adds them. -/
def kerT (cN : EReal) (u v : Fin 3 → EReal) : EReal :=
  Ideal.exp (Ideal.sqrt (max ((((u 0 * u 0 + u 1 * u 1) + u 2 * u 2) + ∑ k : Fin 3, v k * v k)
      - Ideal.ofBits .f32 0x40000000#32 * ((u 0 * v 0 + u 1 * v 1) + u 2 * v 2))
    (Ideal.ofBits .f32 0x00000000#32)) * cN)

/-- The result: at `(b, p)` the sum of the responses over all pixels of image `b`, divided by the pixel count `65536`. -/
def G (x : (⟨4, ![16, 3, 256, 256]⟩ : Shape).Idx → EReal) (P : (⟨2, ![32, 3]⟩ : Shape).Idx → EReal) :
    (⟨2, ![16, 32]⟩ : Shape).Idx → EReal :=
  fun j => Ideal.div (∑ h : Fin 256, ∑ w : Fin 256, refT (pix x (j 0) h w) (proto P (j 1)))
    (Ideal.ofBits .f32 0x47800000#32)

/-- One grid point's contribution at `(b, p)`: the kernel's responses summed over the 64 × 256 pixels of the staged
    tile `x0` of image row `b`, times the word `0x37800000` (`2⁻¹⁶`). -/
def tile (cN : EReal) (x0 : (⟨4, ![8, 3, 64, 256]⟩ : Shape).Idx → EReal) (x1 : (⟨2, ![32, 3]⟩ : Shape).Idx → EReal)
    (b : Fin 8) (p : Fin 32) : EReal :=
  (∑ h : Fin 64, ∑ w : Fin 256, kerT cN (fun c => x0 (ix4 b c h w)) (fun c => x1 (ix2 p c)))
    * Ideal.ofBits .f32 0x37800000#32

end Cert.Spec

end
-- ==== Proof.Layout.lean ====
/-
  The re-layings the kernel's body applies between a load and a store, each read at an index written by coordinates:
  a channel plane cut out of the staged tile, a unit axis dropped or inserted, a pixel plane or a prototype column
  repeated over the axes it does not depend on, eight prototype rows cut out of the table, and the two lane sums.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Layout

open Idealize.ShloMosaic Idealize.ShloMosaic.ValueIdx Idealize.ShloMosaic.Pipeline

variable {α : Type}

/-- Channel `c` of a tile `[a, n, r, w]`, kept as a `[a, 1, r, w]` plane, reads the tile at channel `c`. -/
theorem slice_chan {a n r w : ℕ} (c : ℕ) (hc : c < n) (x : (⟨4, ![a, n, r, w]⟩ : Shape).Idx → α)
    (h : (⟨4, ![a, n, r, w]⟩ : Shape).Slices ![0, c, 0, 0] ⟨4, ![a, 1, r, w]⟩)
    (i : Fin a) (z : Fin 1) (p : Fin r) (q : Fin w) :
    extractStridedSlice ⟨4, ![a, 1, r, w]⟩ ![0, c, 0, 0] x h (ix4 i z p q) = x (ix4 i (⟨c, hc⟩ : Fin n) p q) :=
  slice4_axis1_apply c x h i z p q ⟨c, hc⟩ (by have := z.isLt; show c = c + z.val; omega)

/-- A `[a, 1, r, w]` plane with its unit axis dropped. -/
theorem cast_drop_mid {a r w : ℕ} (x : (⟨4, ![a, 1, r, w]⟩ : Shape).Idx → α)
    (h : (⟨4, ![a, 1, r, w]⟩ : Shape).ShapeCasts ⟨3, ![a, r, w]⟩) (i : Fin a) (p : Fin r) (q : Fin w) :
    shapeCast ⟨3, ![a, r, w]⟩ x h (ix3 i p q) = x (ix4 i (0 : Fin 1) p q) :=
  shapeCast_apply x h _ _ (by
    rw [Shape.rowMajor_val_four, Shape.rowMajor_val_three]
    show ((i.val * 1 + 0) * r + p.val) * w + q.val = (i.val * r + p.val) * w + q.val
    rw [Nat.mul_one, Nat.add_zero])

/-- A `[a, r, w]` array with a unit axis inserted after the first. -/
theorem cast_add_mid {a r w : ℕ} (x : (⟨3, ![a, r, w]⟩ : Shape).Idx → α)
    (h : (⟨3, ![a, r, w]⟩ : Shape).ShapeCasts ⟨4, ![a, 1, r, w]⟩) (i : Fin a) (z : Fin 1) (p : Fin r) (q : Fin w) :
    shapeCast ⟨4, ![a, 1, r, w]⟩ x h (ix4 i z p q) = x (ix3 i p q) :=
  shapeCast_apply x h _ _ (by
    have hz : z.val = 0 := by omega
    rw [Shape.rowMajor_val_four, Shape.rowMajor_val_three]
    show (i.val * r + p.val) * w + q.val = ((i.val * 1 + z.val) * r + p.val) * w + q.val
    rw [hz, Nat.mul_one, Nat.add_zero])

/-- A pixel plane `[8, 1, 64, 256]` repeated over the eight prototypes of a chunk. -/
theorem bcast_plane (x : (⟨4, ![8, 1, 64, 256]⟩ : Shape).Idx → α)
    (h : (⟨4, ![8, 1, 64, 256]⟩ : Shape).Broadcasts ⟨4, ![8, 8, 64, 256]⟩)
    (i : Fin 8) (j : Fin 8) (p : Fin 64) (q : Fin 256) :
    broadcastTo ⟨4, ![8, 8, 64, 256]⟩ x h (ix4 i j p q) = x (ix4 i (0 : Fin 1) p q) := by
  refine broadcastTo_apply x h (ix4 i j p q) (ix4 i (0 : Fin 1) p q) fun ax => ?_
  match ax with
  | ⟨0, _⟩ => rfl
  | ⟨1, _⟩ => rfl
  | ⟨2, _⟩ => rfl
  | ⟨3, _⟩ => rfl

/-- A prototype column `[1, 8, 1, 1]` repeated over the images and the pixels. -/
theorem bcast_column (x : (⟨4, ![1, 8, 1, 1]⟩ : Shape).Idx → α)
    (h : (⟨4, ![1, 8, 1, 1]⟩ : Shape).Broadcasts ⟨4, ![8, 8, 64, 256]⟩)
    (i : Fin 8) (j : Fin 8) (p : Fin 64) (q : Fin 256) :
    broadcastTo ⟨4, ![8, 8, 64, 256]⟩ x h (ix4 i j p q) = x (ix4 (0 : Fin 1) j (0 : Fin 1) (0 : Fin 1)) := by
  refine broadcastTo_apply x h (ix4 i j p q) (ix4 (0 : Fin 1) j (0 : Fin 1) (0 : Fin 1)) fun ax => ?_
  match ax with
  | ⟨0, _⟩ => rfl
  | ⟨1, _⟩ => rfl
  | ⟨2, _⟩ => rfl
  | ⟨3, _⟩ => rfl

/-- A vector `[n]` viewed as `[1, n, 1, 1]`. -/
theorem cast_vec_column {n : ℕ} (x : (⟨1, ![n]⟩ : Shape).Idx → α)
    (h : (⟨1, ![n]⟩ : Shape).ShapeCasts ⟨4, ![1, n, 1, 1]⟩) (z : Fin 1) (j : Fin n) (z' z'' : Fin 1) :
    shapeCast ⟨4, ![1, n, 1, 1]⟩ x h (ix4 z j z' z'') = x (ix1 j) :=
  shapeCast_apply x h _ _ (by
    have hz : z.val = 0 := by omega
    have hz' : z'.val = 0 := by omega
    have hz'' : z''.val = 0 := by omega
    rw [Shape.rowMajor_val_four, Shape.rowMajor_val_one]
    show j.val = ((z.val * n + j.val) * 1 + z'.val) * 1 + z''.val
    rw [hz, hz', hz'']; omega)

/-- A column `[n, 1]` viewed as a vector `[n]`. -/
theorem cast_column_vec {n : ℕ} (x : (⟨2, ![n, 1]⟩ : Shape).Idx → α)
    (h : (⟨2, ![n, 1]⟩ : Shape).ShapeCasts ⟨1, ![n]⟩) (j : Fin n) :
    shapeCast ⟨1, ![n]⟩ x h (ix1 j) = x (ix2 j (0 : Fin 1)) :=
  shapeCast_apply x h _ _ (by
    rw [Shape.rowMajor_val_two, Shape.rowMajor_val_one]
    show j.val * 1 + 0 = j.val
    omega)

/-- Column `c` of an `[m, n]` matrix, kept as an `[m, 1]` column. -/
theorem slice_col {m n : ℕ} (c : ℕ) (hc : c < n) (x : (⟨2, ![m, n]⟩ : Shape).Idx → α)
    (h : (⟨2, ![m, n]⟩ : Shape).Slices ![0, c] ⟨2, ![m, 1]⟩) (j : Fin m) (z : Fin 1) :
    extractStridedSlice ⟨2, ![m, 1]⟩ ![0, c] x h (ix2 j z) = x (ix2 j (⟨c, hc⟩ : Fin n)) :=
  slice2_axis1_apply c x h j z ⟨c, hc⟩ (by have := z.isLt; show c = c + z.val; omega)

/-- Rows `o … o + m - 1` of an `[N, n]` matrix. -/
theorem slice_rows {N n m : ℕ} (o : ℕ) (x : (⟨2, ![N, n]⟩ : Shape).Idx → α)
    (h : (⟨2, ![N, n]⟩ : Shape).Slices ![o, 0] ⟨2, ![m, n]⟩) (j : Fin m) (c : Fin n) (hj : o + j.val < N) :
    extractStridedSlice ⟨2, ![m, n]⟩ ![o, 0] x h (ix2 j c) = x (ix2 (⟨o + j.val, hj⟩ : Fin N) c) :=
  slice2_axis0_apply o x h j c ⟨o + j.val, hj⟩ rfl

/-- The same, the row written out from the cut's extent. -/
theorem slice_rows' {N n m : ℕ} (o : ℕ) (ho : o + m ≤ N) (x : (⟨2, ![N, n]⟩ : Shape).Idx → α)
    (h : (⟨2, ![N, n]⟩ : Shape).Slices ![o, 0] ⟨2, ![m, n]⟩) (j : Fin m) (c : Fin n) :
    extractStridedSlice ⟨2, ![m, n]⟩ ![o, 0] x h (ix2 j c) = x (ix2 (⟨o + j.val, by have := j.isLt; omega⟩ : Fin N) c) :=
  slice2_axis0_apply o x h j c ⟨o + j.val, by have := j.isLt; omega⟩ rfl

/-- The sum along the last axis of an `[a, b, c, d]` array of extended reals. -/
theorem sum_axis3 {a b c d : ℕ} (src : FVec Ideal ⟨4, ![a, b, c, d]⟩ .f32)
    (h : (⟨4, ![a, b, c, d]⟩ : Shape).Reduces [3] ⟨3, ![a, b, c]⟩) (hφ : FKind.Formats .f32)
    (hacc : (0x00000000#32 : BitVec 32) = 0x00000000#32) (i : Fin a) (j : Fin b) (p : Fin c) :
    multiReduction .add [3] ⟨3, ![a, b, c]⟩ src 0x00000000#32 h hφ hacc (ix3 i j p) = ∑ q : Fin d, src (ix4 i j p q) := by
  refine (Ideal.multiReduction_add_single src 0x00000000#32 h hφ hacc (ix3 i j p)).trans ?_
  refine Finset.sum_congr rfl fun q _ => congrArg src (funext fun ax => Fin.ext ?_)
  match ax with
  | ⟨0, _⟩ => rfl
  | ⟨1, _⟩ => rfl
  | ⟨2, _⟩ => rfl
  | ⟨3, _⟩ => rfl

/-- The sum along the last axis of an `[a, b, c]` array of extended reals. -/
theorem sum_axis2 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ p : Fin c, src (ix3 i j p) := by
  refine (Ideal.multiReduction_add_single src 0x00000000#32 h hφ hacc (ix2 i j)).trans ?_
  refine Finset.sum_congr rfl fun p _ => congrArg src (funext fun ax => Fin.ext ?_)
  match ax with
  | ⟨0, _⟩ => rfl
  | ⟨1, _⟩ => rfl
  | ⟨2, _⟩ => rfl

/-- The sum along the rows of an `[a, b]` matrix of extended reals. -/
theorem sum_axis1 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src (funext fun ax => Fin.ext ?_)
  match ax with
  | ⟨0, _⟩ => rfl
  | ⟨1, _⟩ => rfl

/-- The square root and the exponential act entry by entry. -/
theorem sqrt_apply {s : Shape} (x : FVec Ideal s .f32) (i : s.Idx) : sqrt x i = Ideal.sqrt (x i) := rfl
theorem exp_apply {s : Shape} (x : FVec Ideal s .f32) (i : s.Idx) : exp x i = Ideal.exp (x i) := rfl

end Cert.Layout

end
-- ==== Proof.Pay.lean ====
import proofs.«122700_j65910568124951_2_alg».proof.Proof.Gen.KernelIdeal.Frame
import proofs.«122700_j65910568124951_2_alg».proof.Proof.Spec
import proofs.«122700_j65910568124951_2_alg».proof.Proof.Layout

noncomputable section

namespace Cert.Pay

open Idealize.ShloMosaic Idealize.ShloMosaic.ValueIdx Idealize.ShloMosaic.Pipeline Cert.KernelIdeal Cert.KernelIdeal.Gen Cert.Layout

/-
  The four stores of the kernel's body, each read at an entry: a store adds to the eight columns of its chunk the
  sum, over the staged tile's 64 × 256 pixels, of the responses of image row `b` to the chunk's prototypes, scaled
  by `2⁻¹⁶`.  The sums over the two pixel axes are peeled first; what is left under them is one pixel's response,
  read through the re-layings.
-/

/-- The folded constant as the kernel's body carries it. -/
abbrev cN : EReal := Named.named (F := Ideal) Cert.KernelIdeal.κ "neg_inv_denom" (φ := .f32) 0xBFD55555#32

/-- Columns 0–7 of the staged output: what was there plus the tile's scaled sum of responses to prototypes 0–7. -/
theorem k0_pay7_apply (x0 : Vec Ideal S8x3x64x256 .f32) (x1 : Vec Ideal S32x3 .f32) (prev : Vec Ideal S8x8 .f32) (b j : Fin 8) :
    k0_pay7 (F := Ideal) (k0_pay3 x0) (k0_pay5 x1) (k0_pay6 x0 x1) prev (ix2 b j)
      = prev (ix2 b j) + Cert.Spec.tile cN x0 x1 b ⟨0 + j.val, by omega⟩ := by
  unfold k0_pay7
  simp only [addf_apply, mulf_apply, broadcast_apply, shapeCast_self]
  unfold Cert.Spec.tile
  refine congrArg (prev (ix2 b j) + ·) (congrArg (· * _) ?_)
  refine (sum_axis2 _ _ _ _ b j).trans (Finset.sum_congr rfl fun p _ => ?_)
  refine (sum_axis3 _ _ _ _ b j p).trans (Finset.sum_congr rfl fun q _ => ?_)
  simp only [k0_pay3, k0_pay4, k0_pay5, k0_pay6, addf_apply, mulf_apply, subf_apply, maximumf_apply, broadcast_apply, sqrt_apply, exp_apply,
    bcast_plane, bcast_column, cast_vec_column, cast_column_vec, cast_add_mid, cast_drop_mid,
    slice_chan (n := 3) 0 (by decide), slice_chan (n := 3) 1 (by decide), slice_chan (n := 3) 2 (by decide),
    slice_col (n := 3) 0 (by decide), slice_col (n := 3) 1 (by decide), slice_col (n := 3) 2 (by decide)]
  rw [sum_axis1]
  simp only [mulf_apply, slice_rows' (N := 32) (m := 8) 0 (by decide)]
  rfl

/-- Columns 8–15 of the staged output: what was there plus the tile's scaled sum of responses to prototypes 8–15. -/
theorem k0_pay13_apply (x0 : Vec Ideal S8x3x64x256 .f32) (x1 : Vec Ideal S32x3 .f32) (prev : Vec Ideal S8x8 .f32) (b j : Fin 8) :
    k0_pay13 (F := Ideal) (k0_pay3 x0) (k0_pay9 x1) (k0_pay10 x0 x1) (k0_pay11 x0) (k0_pay12 x1) prev (ix2 b j)
      = prev (ix2 b j) + Cert.Spec.tile cN x0 x1 b ⟨8 + j.val, by omega⟩ := by
  unfold k0_pay13
  simp only [addf_apply, mulf_apply, broadcast_apply, shapeCast_self]
  unfold Cert.Spec.tile
  refine congrArg (prev (ix2 b j) + ·) (congrArg (· * _) ?_)
  refine (sum_axis2 _ _ _ _ b j).trans (Finset.sum_congr rfl fun p _ => ?_)
  refine (sum_axis3 _ _ _ _ b j p).trans (Finset.sum_congr rfl fun q _ => ?_)
  simp only [k0_pay3, k0_pay8, k0_pay9, k0_pay10, k0_pay11, k0_pay12, addf_apply, mulf_apply, subf_apply, maximumf_apply, broadcast_apply, sqrt_apply, exp_apply,
    bcast_plane, bcast_column, cast_vec_column, cast_column_vec, cast_add_mid, cast_drop_mid,
    slice_chan (n := 3) 0 (by decide), slice_chan (n := 3) 1 (by decide), slice_chan (n := 3) 2 (by decide),
    slice_col (n := 3) 0 (by decide), slice_col (n := 3) 1 (by decide), slice_col (n := 3) 2 (by decide)]
  rw [sum_axis1]
  simp only [mulf_apply, slice_rows' (N := 32) (m := 8) 8 (by decide)]
  rfl

/-- Columns 16–23 of the staged output: what was there plus the tile's scaled sum of responses to prototypes 16–23. -/
theorem k0_pay19_apply (x0 : Vec Ideal S8x3x64x256 .f32) (x1 : Vec Ideal S32x3 .f32) (prev : Vec Ideal S8x8 .f32) (b j : Fin 8) :
    k0_pay19 (F := Ideal) x0 (k0_pay3 x0) (k0_pay14 x1) (k0_pay15 x1) (k0_pay16 x0 x1) (k0_pay17 x0) (k0_pay18 x1) prev (ix2 b j)
      = prev (ix2 b j) + Cert.Spec.tile cN x0 x1 b ⟨16 + j.val, by omega⟩ := by
  unfold k0_pay19
  simp only [addf_apply, mulf_apply, broadcast_apply, shapeCast_self]
  unfold Cert.Spec.tile
  refine congrArg (prev (ix2 b j) + ·) (congrArg (· * _) ?_)
  refine (sum_axis2 _ _ _ _ b j).trans (Finset.sum_congr rfl fun p _ => ?_)
  refine (sum_axis3 _ _ _ _ b j p).trans (Finset.sum_congr rfl fun q _ => ?_)
  simp only [k0_pay3, k0_pay14, k0_pay15, k0_pay16, k0_pay17, k0_pay18, addf_apply, mulf_apply, subf_apply, maximumf_apply, broadcast_apply, sqrt_apply, exp_apply,
    bcast_plane, bcast_column, cast_vec_column, cast_column_vec, cast_add_mid, cast_drop_mid,
    slice_chan (n := 3) 0 (by decide), slice_chan (n := 3) 1 (by decide), slice_chan (n := 3) 2 (by decide),
    slice_col (n := 3) 0 (by decide), slice_col (n := 3) 1 (by decide), slice_col (n := 3) 2 (by decide)]
  rw [sum_axis1]
  simp only [mulf_apply, slice_rows' (N := 32) (m := 8) 16 (by decide)]
  rfl

/-- Columns 24–31 of the staged output: what was there plus the tile's scaled sum of responses to prototypes 24–31. -/
theorem k0_pay1_apply (x0 : Vec Ideal S8x3x64x256 .f32) (x1 : Vec Ideal S32x3 .f32) (prev : Vec Ideal S8x8 .f32) (b j : Fin 8) :
    k0_pay1 (F := Ideal) x0 (k0_pay3 x0) (k0_pay20 x1) (k0_pay21 x1) (k0_pay22 x0 x1) (k0_pay23 x0) prev (ix2 b j)
      = prev (ix2 b j) + Cert.Spec.tile cN x0 x1 b ⟨24 + j.val, by omega⟩ := by
  unfold k0_pay1
  simp only [addf_apply, mulf_apply, broadcast_apply, shapeCast_self]
  unfold Cert.Spec.tile
  refine congrArg (prev (ix2 b j) + ·) (congrArg (· * _) ?_)
  refine (sum_axis2 _ _ _ _ b j).trans (Finset.sum_congr rfl fun p _ => ?_)
  refine (sum_axis3 _ _ _ _ b j p).trans (Finset.sum_congr rfl fun q _ => ?_)
  simp only [k0_pay3, k0_pay20, k0_pay21, k0_pay22, k0_pay23, addf_apply, mulf_apply, subf_apply, maximumf_apply, broadcast_apply, sqrt_apply, exp_apply,
    bcast_plane, bcast_column, cast_vec_column, cast_column_vec, cast_add_mid, cast_drop_mid,
    slice_chan (n := 3) 0 (by decide), slice_chan (n := 3) 1 (by decide), slice_chan (n := 3) 2 (by decide),
    slice_col (n := 3) 0 (by decide), slice_col (n := 3) 1 (by decide), slice_col (n := 3) 2 (by decide)]
  rw [sum_axis1]
  simp only [mulf_apply, slice_rows' (N := 32) (m := 8) 24 (by decide)]
  rfl

end Cert.Pay

end
-- ==== Proof.Pieces.lean ====
/-
  What one grid point leaves in the staged output block.  The body's stores are read back newest first: an entry in
  columns `8k … 8k + 7` is under the store of chunk `k` and under no later one, and that store wrote what the block
  held there before it plus the tile's contribution.  At a point that first zeroes the block the value before is the
  zero word; at any other point it is what the point before left.
-/
import proofs.«122700_j65910568124951_2_alg».proof.Proof.Gen.KernelIdeal.Frame
import proofs.«122700_j65910568124951_2_alg».proof.Proof.Pay
import Idealize.ShloMosaic.Lib.Pipeline.Value
import Idealize.ShloMosaic.Lib.Tactic
import Idealize.ShloMosaic.Lib.ValueIdx

noncomputable section

namespace Cert.Pieces

open Idealize.ShloMosaic Idealize.ShloMosaic.TcCoe Idealize.SL.Sem Idealize.ShloMosaic.ValueIdx Cert.KernelIdeal Cert.KernelIdeal.Gen
open Idealize.ShloMosaic.Pipeline (Dat)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Entry `(b, o + j)` lies under a newest store of the 8 × 8 block at column `o`, at its position `(b, j)`. -/
theorem canon_hit (o : ℕ) (inb : ∀ a, (![0, o] : Fin 2 → ℕ) a + (![8, 8] : Fin 2 → ℕ) a ≤ S8x32.size a)
    (w : (Rect.unit (s := S8x32) ![0, o] ![8, 8] inb).shape.Idx → Elt Ideal .f32) (L : List (View.Piece (Elt Ideal) S8x32 .f32))
    (b j : Fin 8) (p : Fin 32) (hp : p.val = o + j.val) :
    View.canon ((⟨Rect.unit ![0, o] ![8, 8] inb, w⟩ : View.Piece (Elt Ideal) S8x32 .f32) :: L) (ix2 b p) = w (ix2 b j) := by
  have hy : (Rect.unit (s := S8x32) ![0, o] ![8, 8] inb).emb (ix2 b j) = ix2 b p := funext fun a => Fin.ext (by
    match a with
    | ⟨0, _⟩ => show 0 + 1 * b.val = b.val; omega
    | ⟨1, _⟩ => show o + 1 * j.val = p.val; omega)
  rw [← hy]
  exact View.canon_cons_emb _ w L (ix2 b j)

/-- Entry `(b, p)` with `p` outside columns `o … o + 7` is not under that store. -/
theorem canon_miss (o : ℕ) (inb : ∀ a, (![0, o] : Fin 2 → ℕ) a + (![8, 8] : Fin 2 → ℕ) a ≤ S8x32.size a)
    (w : (Rect.unit (s := S8x32) ![0, o] ![8, 8] inb).shape.Idx → Elt Ideal .f32) (L : List (View.Piece (Elt Ideal) S8x32 .f32))
    (b : Fin 8) (p : Fin 32) (hp : p.val < o ∨ o + 8 ≤ p.val) :
    View.canon ((⟨Rect.unit ![0, o] ![8, 8] inb, w⟩ : View.Piece (Elt Ideal) S8x32 .f32) :: L) (ix2 b p) = View.canon L (ix2 b p) := by
  refine View.canon_cons_of_not_mem _ L ?_
  rw [Rect.mem_set_unit]
  intro hall
  have h1 := hall (1 : Fin 2)
  have e1 : ((ix2 b p : S8x32.Idx) (1 : Fin 2)).val = p.val := rfl
  have e2 : (![0, o] : Fin 2 → ℕ) (1 : Fin 2) = o := rfl
  have e3 : (![8, 8] : Fin 2 → ℕ) (1 : Fin 2) = 8 := rfl
  rw [e1, e2, e3] at h1
  omega

/-- A load of the 8 × 8 block at column `o` of contents `X`, at `(b, j)`, is `X` at `(b, o + j)`. -/
theorem ld_chunk (o : ℕ) (inb : ∀ a, (![0, o] : Fin 2 → ℕ) a + (![8, 8] : Fin 2 → ℕ) a ≤ S8x32.size a)
    (X : S8x32.Idx → Elt Ideal .f32) (b j : Fin 8) (p : Fin 32) (hp : p.val = o + j.val) :
    View.ld X (Rect.unit (s := S8x32) ![0, o] ![8, 8] inb) (ix2 b j) = X (ix2 b p) := by
  show X ((Rect.unit (s := S8x32) ![0, o] ![8, 8] inb).idx (ix2 b j)) = X (ix2 b p)
  refine congrArg X (funext fun a => Fin.ext ?_)
  match a with
  | ⟨0, _⟩ => show 0 + 1 * b.val = b.val; omega
  | ⟨1, _⟩ => show o + 1 * j.val = p.val; omega

/-- The same load after earlier stores `L` of the same body: what those stores left at `(b, o + j)`. -/
theorem readCov_chunk (v : View sig .tc .vmem S8x32 .f32) (L : List (View.Piece (Elt Ideal) S8x32 .f32)) (o : ℕ)
    (inb : ∀ a, (![0, o] : Fin 2 → ℕ) a + (![8, 8] : Fin 2 → ℕ) a ≤ S8x32.size a) (b j : Fin 8) (p : Fin 32)
    (hp : p.val = o + j.val) :
    v.readCov L (Rect.unit (s := S8x32) ![0, o] ![8, 8] inb).toLoadRect (ix2 b j) = View.canon L (ix2 b p) := by
  rw [View.readCov_eq_canon']
  show View.canon L ((Rect.unit (s := S8x32) ![0, o] ![8, 8] inb).idx (ix2 b j)) = View.canon L (ix2 b p)
  refine congrArg (View.canon L) (funext fun a => Fin.ext ?_)
  match a with
  | ⟨0, _⟩ => show 0 + 1 * b.val = b.val; omega
  | ⟨1, _⟩ => show o + 1 * j.val = p.val; omega

/-- A column index written as its chunk's first column plus the position in the chunk. -/
theorem fin_shift (o : ℕ) (p : Fin 32) (h : o ≤ p.val) (hlt : o + (p.val - o) < 32) : (⟨o + (p.val - o), hlt⟩ : Fin 32) = p :=
  Fin.ext (by show o + (p.val - o) = p.val; omega)

/-- A point that does not zero the block first: every entry gains the tile's contribution. -/
theorem out_B (c : Dev nD) (i : grid0.Coords) (arg2 : Memref sig .tc .vmem S8x3x64x256 .f32) (harg2 : arg2.IsWhole)
    (arg3 : Memref sig .tc .vmem S32x3 .f32) (harg3 : arg3.IsWhole) (arg4 : Memref sig .tc .vmem S8x32 .f32) (harg4 : arg4.IsWhole)
    (hc0 : ¬cond0_0 i) (x0 : Vec Ideal S8x3x64x256 .f32) (x1 : Vec Ideal S32x3 .f32) (xo2 : Vec Ideal S8x32 .f32)
    (b : Fin 8) (p : Fin 32) :
    out0_B_2 (F := Ideal) c i arg2 harg2 arg3 harg3 arg4 harg4 hc0 x0 x1 xo2 (ix2 b p)
      = xo2 (ix2 b p) + Cert.Spec.tile Cert.Pay.cN x0 x1 b p := by
  unfold out0_B_2
  rw [View.read_writes_eq_canon _ _ _ (cover0_B_2 c i arg2 harg2 arg3 harg3 arg4 harg4 hc0 x0 x1 xo2)]
  unfold kernelRun0_B
  dsimp only
  sl_unfold_words
  simp only [View.readAt_eq_ld, harg2.read_unread, harg3.read_unread, harg4.read_unread,
    View.ld_unit_zero (S := S8x3x64x256) hz4, View.ld_unit_zero (S := S32x3) hz2]
  have hp := p.isLt
  by_cases h3 : 24 ≤ p.val
  · have hj : p.val - 24 < 8 := by omega
    rw [canon_hit 24 _ _ _ b ⟨p.val - 24, hj⟩ p (by show p.val = 24 + (p.val - 24); omega),
      Cert.Pay.k0_pay1_apply, ld_chunk 24 _ _ b ⟨p.val - 24, hj⟩ p (by show p.val = 24 + (p.val - 24); omega),
      fin_shift 24 p h3]
  · rw [canon_miss 24 _ _ _ b p (Or.inl (by omega))]
    by_cases h2 : 16 ≤ p.val
    · have hj : p.val - 16 < 8 := by omega
      rw [canon_hit 16 _ _ _ b ⟨p.val - 16, hj⟩ p (by show p.val = 16 + (p.val - 16); omega),
        Cert.Pay.k0_pay19_apply, ld_chunk 16 _ _ b ⟨p.val - 16, hj⟩ p (by show p.val = 16 + (p.val - 16); omega),
        fin_shift 16 p h2]
    · rw [canon_miss 16 _ _ _ b p (Or.inl (by omega))]
      by_cases h1 : 8 ≤ p.val
      · have hj : p.val - 8 < 8 := by omega
        rw [canon_hit 8 _ _ _ b ⟨p.val - 8, hj⟩ p (by show p.val = 8 + (p.val - 8); omega),
          Cert.Pay.k0_pay13_apply, ld_chunk 8 _ _ b ⟨p.val - 8, hj⟩ p (by show p.val = 8 + (p.val - 8); omega),
          fin_shift 8 p h1]
      · rw [canon_miss 8 _ _ _ b p (Or.inl (by omega))]
        have hj : p.val - 0 < 8 := by omega
        rw [canon_hit 0 _ _ _ b ⟨p.val - 0, hj⟩ p (by show p.val = 0 + (p.val - 0); omega),
          Cert.Pay.k0_pay7_apply, ld_chunk 0 _ _ b ⟨p.val - 0, hj⟩ p (by show p.val = 0 + (p.val - 0); omega),
          fin_shift 0 p (Nat.zero_le _)]

/-- The zero word the first point of a row of tiles fills the block with, read at an entry. -/
theorem pay2_apply (y : S8x32.Idx) : k0_pay2 (F := Ideal) y = Ideal.ofBits .f32 0x00000000#32 := rfl

/-- A point that zeroes the block first: every entry is the zero word plus the tile's contribution. -/
theorem out_A (c : Dev nD) (i : grid0.Coords) (arg2 : Memref sig .tc .vmem S8x3x64x256 .f32) (harg2 : arg2.IsWhole)
    (arg3 : Memref sig .tc .vmem S32x3 .f32) (harg3 : arg3.IsWhole) (arg4 : Memref sig .tc .vmem S8x32 .f32) (harg4 : arg4.IsWhole)
    (hc0 : cond0_0 i) (x0 : Vec Ideal S8x3x64x256 .f32) (x1 : Vec Ideal S32x3 .f32)
    (b : Fin 8) (p : Fin 32) :
    out0_A_2 (F := Ideal) c i arg2 harg2 arg3 harg3 arg4 harg4 hc0 x0 x1 (ix2 b p)
      = Ideal.ofBits .f32 0x00000000#32 + Cert.Spec.tile Cert.Pay.cN x0 x1 b p := by
  unfold out0_A_2
  rw [View.read_writes_eq_canon _ _ _ (cover0_A_2 c i arg2 harg2 arg3 harg3 arg4 harg4 hc0 x0 x1)]
  unfold kernelRun0_A
  dsimp only
  sl_unfold_words
  simp only [View.readAt_eq_ld, harg2.read_unread, harg3.read_unread,
    View.ld_unit_zero (S := S8x3x64x256) hz4, View.ld_unit_zero (S := S32x3) hz2]
  have hp := p.isLt
  by_cases h3 : 24 ≤ p.val
  · have hj : p.val - 24 < 8 := by omega
    have e : p.val = 24 + (⟨p.val - 24, hj⟩ : Fin 8).val := by show p.val = 24 + (p.val - 24); omega
    rw [canon_hit 24 _ _ _ b ⟨p.val - 24, hj⟩ p e, Cert.Pay.k0_pay1_apply, readCov_chunk _ _ 24 _ b ⟨p.val - 24, hj⟩ p e,
      canon_miss 16 _ _ _ b p (Or.inr (by omega)), canon_miss 8 _ _ _ b p (Or.inr (by omega)),
      canon_miss 0 _ _ _ b p (Or.inr (by omega)), View.canon_unit_zero (S := S8x32) hz2, pay2_apply, fin_shift 24 p h3]
  · rw [canon_miss 24 _ _ _ b p (Or.inl (by omega))]
    by_cases h2 : 16 ≤ p.val
    · have hj : p.val - 16 < 8 := by omega
      have e : p.val = 16 + (⟨p.val - 16, hj⟩ : Fin 8).val := by show p.val = 16 + (p.val - 16); omega
      rw [canon_hit 16 _ _ _ b ⟨p.val - 16, hj⟩ p e, Cert.Pay.k0_pay19_apply, readCov_chunk _ _ 16 _ b ⟨p.val - 16, hj⟩ p e,
        canon_miss 8 _ _ _ b p (Or.inr (by omega)), canon_miss 0 _ _ _ b p (Or.inr (by omega)),
        View.canon_unit_zero (S := S8x32) hz2, pay2_apply, fin_shift 16 p h2]
    · rw [canon_miss 16 _ _ _ b p (Or.inl (by omega))]
      by_cases h1 : 8 ≤ p.val
      · have hj : p.val - 8 < 8 := by omega
        have e : p.val = 8 + (⟨p.val - 8, hj⟩ : Fin 8).val := by show p.val = 8 + (p.val - 8); omega
        rw [canon_hit 8 _ _ _ b ⟨p.val - 8, hj⟩ p e, Cert.Pay.k0_pay13_apply, readCov_chunk _ _ 8 _ b ⟨p.val - 8, hj⟩ p e,
          canon_miss 0 _ _ _ b p (Or.inr (by omega)), View.canon_unit_zero (S := S8x32) hz2, pay2_apply, fin_shift 8 p h1]
      · rw [canon_miss 8 _ _ _ b p (Or.inl (by omega))]
        have hj : p.val - 0 < 8 := by omega
        have e : p.val = 0 + (⟨p.val - 0, hj⟩ : Fin 8).val := by show p.val = 0 + (p.val - 0); omega
        rw [canon_hit 0 _ _ _ b ⟨p.val - 0, hj⟩ p e, Cert.Pay.k0_pay7_apply, readCov_chunk _ _ 0 _ b ⟨p.val - 0, hj⟩ p e,
          View.canon_unit_zero (S := S8x32) hz2, pay2_apply, fin_shift 0 p (Nat.zero_le _)]

end Cert.Pieces

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.LibRealSums.lean ====
/-
  Real-valued families of extended reals, and the two laws of finite sums that hold for them.

  On the extended reals a product does not distribute over a sum in general.  It does as soon as the summands and the
  factor are real numbers: then every term is real and the law is the real one.  This file names "every value is a real
  number" (`IsReal`), shows that sums, products, maxima and selections of real values are real, and proves
  `(∑ b) * w = ∑ (b * w)` for real `b` and `w`, from which follow the two regroupings a graph layer needs: a masked
  sum of row-by-matrix products is the product of the masked sum of rows (`sum_ite_contract`), and a row-by-matrix
  product scaled by a real number is the product of the scaled row (`contract_mul`).
-/
import Mathlib.Data.EReal.Operations
import Mathlib.Data.EReal.Inv
import Mathlib.Algebra.BigOperators.Group.Finset.Sigma
import Mathlib.Algebra.BigOperators.Group.Finset.Basic
import Mathlib.Algebra.BigOperators.Ring.Finset

open scoped BigOperators

namespace Cert.Lib

/-- Every value of the family is a real number. -/
def IsReal {ι : Type*} (f : ι → EReal) : Prop := ∀ i, ∃ r : ℝ, f i = (r : EReal)

/-- The inclusion of the reals as an additive homomorphism. -/
def coeHom : ℝ →+ EReal where
  toFun := fun r => (r : EReal)
  map_zero' := EReal.coe_zero
  map_add' := EReal.coe_add

/-- The inclusion of the reals commutes with finite sums. -/
theorem coe_sum {ι : Type*} (s : Finset ι) (f : ι → ℝ) : ((∑ i ∈ s, f i : ℝ) : EReal) = ∑ i ∈ s, (f i : EReal) :=
  map_sum coeHom f s

theorem isReal_zero : ∃ r : ℝ, (0 : EReal) = (r : EReal) := ⟨0, EReal.coe_zero.symm⟩
theorem isReal_one : ∃ r : ℝ, (1 : EReal) = (r : EReal) := ⟨1, EReal.coe_one.symm⟩

theorem isReal_add {a b : EReal} (ha : ∃ r : ℝ, a = r) (hb : ∃ r : ℝ, b = r) : ∃ r : ℝ, a + b = (r : EReal) := by
  obtain ⟨x, rfl⟩ := ha; obtain ⟨y, rfl⟩ := hb; exact ⟨x + y, (EReal.coe_add x y).symm⟩

theorem isReal_mul {a b : EReal} (ha : ∃ r : ℝ, a = r) (hb : ∃ r : ℝ, b = r) : ∃ r : ℝ, a * b = (r : EReal) := by
  obtain ⟨x, rfl⟩ := ha; obtain ⟨y, rfl⟩ := hb; exact ⟨x * y, (EReal.coe_mul x y).symm⟩

theorem isReal_max {a b : EReal} (ha : ∃ r : ℝ, a = r) (hb : ∃ r : ℝ, b = r) : ∃ r : ℝ, max a b = (r : EReal) := by
  rcases max_choice a b with h | h
  · rw [h]; exact ha
  · rw [h]; exact hb

theorem isReal_ite {P : Prop} [Decidable P] {a b : EReal} (ha : ∃ r : ℝ, a = r) (hb : ∃ r : ℝ, b = r) :
    ∃ r : ℝ, (if P then a else b) = (r : EReal) := by
  split
  · exact ha
  · exact hb

/-- A finite sum of real values is real. -/
theorem isReal_sum {ι : Type*} (s : Finset ι) (f : ι → EReal) (hf : IsReal f) : ∃ r : ℝ, ∑ i ∈ s, f i = (r : EReal) := by
  choose f' hf' using hf
  exact ⟨∑ i ∈ s, f' i, by rw [coe_sum]; exact Finset.sum_congr rfl fun i _ => hf' i⟩

/-- A real value is neither infinity. -/
theorem ne_top_bot_of_isReal {a : EReal} (ha : ∃ r : ℝ, a = r) : a ≠ ⊤ ∧ a ≠ ⊥ := by
  obtain ⟨x, rfl⟩ := ha; exact ⟨EReal.coe_ne_top x, EReal.coe_ne_bot x⟩

/-- The inverse of a real value (with `0⁻¹ = 0` as in the reals... on the extended reals the inverse of zero is the
    real `0` too) is real. -/
theorem isReal_inv {a : EReal} (ha : ∃ r : ℝ, a = r) : ∃ r : ℝ, a⁻¹ = (r : EReal) := by
  obtain ⟨x, rfl⟩ := ha; exact ⟨x⁻¹, (EReal.coe_inv x).symm⟩

/-- Right distributivity over a finite sum of real values by a real factor. -/
theorem sum_mul_of_isReal {ι : Type*} (s : Finset ι) (b : ι → EReal) (w : EReal) (hb : IsReal b) (hw : ∃ r : ℝ, w = r) :
    (∑ i ∈ s, b i) * w = ∑ i ∈ s, b i * w := by
  obtain ⟨w', rfl⟩ := hw
  choose b' hb' using hb
  have hbb : b = fun i => (b' i : EReal) := funext hb'
  subst hbb
  rw [← coe_sum, ← EReal.coe_mul, Finset.sum_mul, coe_sum]
  exact Finset.sum_congr rfl fun i _ => EReal.coe_mul _ _

/-- A masked sum over `e` of the contractions `∑ k, h e k * w k` is the contraction of the masked sums, for real
    `h` and `w`. -/
theorem sum_ite_contract {ε κ : Type*} [Fintype ε] [Fintype κ] (P : ε → Prop) [DecidablePred P]
    (h : ε → κ → EReal) (w : κ → EReal) (hh : ∀ e, IsReal (h e)) (hw : IsReal w) :
    ∑ e, (if P e then ∑ k, h e k * w k else 0) = ∑ k, (∑ e, if P e then h e k else 0) * w k := by
  have h1 : ∀ e, (if P e then ∑ k, h e k * w k else 0) = ∑ k, (if P e then h e k else 0) * w k := by
    intro e
    by_cases hP : P e
    · simp only [if_pos hP]
    · simp only [if_neg hP, zero_mul, Finset.sum_const_zero]
  rw [Finset.sum_congr rfl fun e _ => h1 e, Finset.sum_comm]
  refine Finset.sum_congr rfl fun k _ => ?_
  exact (sum_mul_of_isReal Finset.univ (fun e => if P e then h e k else 0) (w k)
    (fun e => isReal_ite (hh e k) isReal_zero) (hw k)).symm

/-- A contraction scaled by a real `d` is the contraction of the scaled row, for real terms. -/
theorem contract_mul {κ : Type*} [Fintype κ] (a w : κ → EReal) (d : EReal) (ha : IsReal a) (hw : IsReal w)
    (hd : ∃ r : ℝ, d = r) : (∑ k, a k * w k) * d = ∑ k, (a k * d) * w k := by
  rw [sum_mul_of_isReal Finset.univ (fun k => a k * w k) d (fun k => isReal_mul (ha k) (hw k)) hd]
  exact Finset.sum_congr rfl fun k _ => mul_right_comm _ _ _

end Cert.Lib
-- ==== Proof.Algebra.lean ====
/-
  The algebra over the reals behind the two spellings of the response, and the mean taken tile by tile.
-/
import proofs.«122700_j65910568124951_2_alg».proof.Proof.Spec
import proofs.«122700_j65910568124951_2_alg».proof.Proof.LibBlockSum
import proofs.«122700_j65910568124951_2_alg».proof.Proof.LibRealSums
import Idealize.ShloMosaic.PureOps.Ideal.Laws
import Mathlib.Analysis.SpecialFunctions.Pow.Real
import Mathlib.Analysis.SpecialFunctions.Sqrt
import Mathlib.Tactic

noncomputable section

namespace Cert.Algebra

open Idealize.ShloMosaic

/-! ### The values of the literal words -/

theorem ofBits_half : Ideal.ofBits .f32 0x3F000000#32 = ((1 / 2 : ℝ) : EReal) := by
  simp [Ideal.ofBits, Ideal.ieee, -EReal.coe_mul]; norm_num

theorem ofBits_D : Ideal.ofBits .f32 0x3F19999A#32 = ((5033165 / 8388608 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem ofBits_65536 : Ideal.ofBits .f32 0x47800000#32 = ((65536 : ℝ) : EReal) := by
  simp [Ideal.ofBits, Ideal.ieee, -EReal.coe_mul]; norm_num

theorem ofBits_inv65536 : Ideal.ofBits .f32 0x37800000#32 = ((1 / 65536 : ℝ) : EReal) := by
  simp [Ideal.ofBits, Ideal.ieee, -EReal.coe_mul]; norm_num

/-! ### The two spellings of the response at real arguments -/

/-- The reference's response at real channel values: `exp (-√(Σₖ (aₖ - bₖ)²) · (1/D))`, where `1/D = 8388608/5033165`.
    The exponent word is `1/2` and a real power `s ^ (1/2)` is the square root; division by the nonzero real `D` is
    the product with `1/D`. -/
theorem refT_coe (a b : Fin 3 → ℝ) :
    Cert.Spec.refT (fun k => (a k : EReal)) (fun k => (b k : EReal))
      = ((Real.exp (-Real.sqrt (∑ k : Fin 3, (a k - b k) * (a k - b k)) * (8388608 / 5033165)) : ℝ) : EReal) := by
  unfold Cert.Spec.refT
  rw [ofBits_half, ofBits_D, Ideal.div_coe (by norm_num)]
  simp only [← EReal.coe_sub, ← EReal.coe_mul]
  rw [← Cert.Lib.coe_sum, Ideal.pow_coe_coe, ← EReal.coe_neg, ← EReal.coe_mul, Ideal.exp_coe]
  rw [Real.rpow_eq_pow, ← Real.sqrt_eq_rpow]
  norm_num

/-- The kernel's response at real channel values and a real folded constant `c`: `exp (√(Σₖ (aₖ - bₖ)²) · c)`.
    Over the reals `Σ aₖ² + Σ bₖ² - 2 Σ aₖbₖ = Σ (aₖ - bₖ)²`, a sum of squares, so the maximum with `0` is the
    identity and the square root is the real one. -/
theorem kerT_coe (c : ℝ) (a b : Fin 3 → ℝ) :
    Cert.Spec.kerT (c : EReal) (fun k => (a k : EReal)) (fun k => (b k : EReal))
      = ((Real.exp (Real.sqrt (∑ k : Fin 3, (a k - b k) * (a k - b k)) * c) : ℝ) : EReal) := by
  unfold Cert.Spec.kerT
  rw [ofBits_two, ofBits_zero, Fin.sum_univ_three]
  simp only [← EReal.coe_mul, ← EReal.coe_add, ← EReal.coe_sub]
  have hA : a 0 * a 0 + a 1 * a 1 + a 2 * a 2 + (b 0 * b 0 + b 1 * b 1 + b 2 * b 2)
      - 2 * (a 0 * b 0 + a 1 * b 1 + a 2 * b 2) = ∑ k : Fin 3, (a k - b k) * (a k - b k) := by
    rw [Fin.sum_univ_three]; ring
  have h0 : 0 ≤ ∑ k : Fin 3, (a k - b k) * (a k - b k) := Finset.sum_nonneg fun k _ => mul_self_nonneg _
  rw [hA, max_eq_left (by exact_mod_cast h0), Ideal.sqrt_coe, if_neg (not_lt.mpr h0), ← EReal.coe_mul, Ideal.exp_coe]

/-- On real channel values the kernel's response with the folded constant `-1/D = -8388608/5033165` is the
    reference's. -/
theorem kerT_eq_refT (u v : Fin 3 → EReal) (hu : ∀ k, ∃ r : ℝ, u k = (r : EReal)) (hv : ∀ k, ∃ r : ℝ, v k = (r : EReal)) :
    Cert.Spec.kerT (((-8388608 / 5033165 : ℝ)) : EReal) u v = Cert.Spec.refT u v := by
  choose a ha using hu
  choose b hb using hv
  obtain rfl : u = fun k => (a k : EReal) := funext ha
  obtain rfl : v = fun k => (b k : EReal) := funext hb
  rw [kerT_coe, refT_coe,
    show ∀ s : ℝ, s * (-8388608 / 5033165) = -s * (8388608 / 5033165) from fun s => by ring]

/-- On real channel values the reference's response is a real number. -/
theorem refT_real (u v : Fin 3 → EReal) (hu : ∀ k, ∃ r : ℝ, u k = (r : EReal)) (hv : ∀ k, ∃ r : ℝ, v k = (r : EReal)) :
    ∃ r : ℝ, Cert.Spec.refT u v = (r : EReal) := by
  choose a ha using hu
  choose b hb using hv
  obtain rfl : u = fun k => (a k : EReal) := funext ha
  obtain rfl : v = fun k => (b k : EReal) := funext hb
  exact ⟨_, refT_coe a b⟩

/-! ### The mean, tile by tile -/

/-- One tile's contribution: the sum of `f` over the 64 rows `64 j, …, 64 j + 63` and all 256 columns, times the
    word `0x37800000` (`2⁻¹⁶`). -/
def rowTile (f : Fin 256 → Fin 256 → EReal) (j : Fin 4) : EReal :=
  (∑ h : Fin 64, ∑ w : Fin 256, f ⟨64 * j.val + h.val, by omega⟩ w) * Ideal.ofBits .f32 0x37800000#32

/-- A real sum over 256 rows is the sum of its four blocks of 64 consecutive rows. -/
theorem sum_rows_blocks (R : Fin 256 → ℝ) :
    ∑ h : Fin 256, R h = ∑ j : Fin 4, ∑ l : Fin 64, R ⟨64 * j.val + l.val, by omega⟩ := by
  have key := Cert.Lib.sum_blocks 4 64 (fun n => if hn : n < 256 then R ⟨n, hn⟩ else 0)
  rw [Finset.sum_range (fun s => ∑ l : Fin 64, (fun n => if hn : n < 256 then R ⟨n, hn⟩ else 0) (64 * s + l.val))] at key
  have hr : (∑ k : Fin (4 * 64), (fun n => if hn : n < 256 then R ⟨n, hn⟩ else 0) k.val) = ∑ h : Fin 256, R h :=
    Finset.sum_congr rfl fun k _ => dif_pos k.isLt
  rw [← hr, ← key]
  refine Finset.sum_congr rfl fun j _ => Finset.sum_congr rfl fun l _ => ?_
  have hlt : 64 * j.val + l.val < 256 := by omega
  exact dif_pos hlt

/-- Four partial sums of 64 rows each, each scaled by `2⁻¹⁶` and added in order onto zero, are the whole sum divided
    by `65536`. Every term is a real number, so the products distribute over the sums as they do in the reals. -/
theorem mean_by_tiles (f : Fin 256 → Fin 256 → EReal) (hf : ∀ h w, ∃ r : ℝ, f h w = (r : EReal)) :
    (((Ideal.ofBits .f32 0x00000000#32 + rowTile f 0) + rowTile f 1) + rowTile f 2) + rowTile f 3
      = Ideal.div (∑ h : Fin 256, ∑ w : Fin 256, f h w) (Ideal.ofBits .f32 0x47800000#32) := by
  choose g hg using hf
  obtain rfl : f = fun h w => (g h w : EReal) := funext fun h => funext fun w => hg h w
  have hrow : ∀ j : Fin 4, rowTile (fun h w => (g h w : EReal)) j
      = (((∑ l : Fin 64, ∑ w : Fin 256, g ⟨64 * j.val + l.val, by omega⟩ w) * (1 / 65536) : ℝ) : EReal) := by
    intro j
    unfold rowTile
    rw [ofBits_inv65536]
    simp only [EReal.coe_mul, Cert.Lib.coe_sum]
  have hs : (∑ h : Fin 256, ∑ w : Fin 256, (g h w : EReal)) = ((∑ h : Fin 256, ∑ w : Fin 256, g h w : ℝ) : EReal) := by
    simp only [Cert.Lib.coe_sum]
  rw [hrow 0, hrow 1, hrow 2, hrow 3, ofBits_zero, ofBits_65536, Ideal.div_coe (by norm_num), hs]
  simp only [← EReal.coe_add, ← EReal.coe_mul]
  rw [EReal.coe_eq_coe_iff, sum_rows_blocks (fun h => ∑ w : Fin 256, g h w), Fin.sum_univ_four]
  simp only [Fin.val_zero, Fin.val_one, Fin.val_two]
  ring

end Cert.Algebra

end
-- ==== Proof.Final.lean ====
/-
  The kernel's result array.  Grid point `t = 4·bi + hi` stages image rows `8·bi … 8·bi + 7`, pixel rows
  `64·hi … 64·hi + 63`, and the whole prototype table, and adds its tile's contribution to output block `bi`; the
  block is zeroed at `hi = 0` and written back after `hi = 3`.  So what is written back at `(b, p)` is the zero
  word plus the four tiles' contributions in order, which for finite inputs is the mean the reference computes.
-/
import proofs.«122700_j65910568124951_2_alg».proof.Proof.Gen.KernelIdeal.Value
import proofs.«122700_j65910568124951_2_alg».proof.Proof.Pieces
import proofs.«122700_j65910568124951_2_alg».proof.Proof.Algebra
import Idealize.ShloMosaic.Lib.Pipeline.Value

noncomputable section

namespace Cert.KernelValue

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ) (ρ : Dev nD → PrngReg)

/-- The folded constant is the exact rational its name gives it. -/
theorem cN_eq : Cert.Pay.cN = (((-8388608 / 5033165 : ℝ)) : EReal) :=
  IdealRules.named_const.ideal_named_scalar _ _ _ _ rfl

/-- The printed index maps at point `t`: image-row block `t / 4`, pixel-row block `t % 4`. -/
theorem idx_facts : ∀ t : Fin cfg0.N, win0_0.index t (0 : Fin 4) = t.val / 4 ∧ win0_0.index t (1 : Fin 4) = 0
    ∧ win0_0.index t (2 : Fin 4) = t.val % 4 ∧ win0_0.index t (3 : Fin 4) = 0
    ∧ win0_1.index t (0 : Fin 2) = 0 ∧ win0_1.index t (1 : Fin 2) = 0
    ∧ win0_2.index t (0 : Fin 2) = t.val / 4 ∧ win0_2.index t (1 : Fin 2) = 0 :=
  (by decide +kernel : ∀ t : Fin grid0.N, _)

/-- The staged image tile at point `t`, read at an entry, is the image array at the tile's place. -/
theorem iblk0_at (c : Dev nD) (t : Fin cfg0.N) (b : Fin 8) (ch : Fin 3) (h : Fin 64) (w : Fin 256) (B : Fin 16) (H : Fin 256)
    (hB : B.val = 8 * (t.val / 4) + b.val) (hH : H.val = 64 * (t.val % 4) + h.val) :
    (iblk m c 0 t : Vec Ideal S8x3x64x256 .f32) (ix4 b ch h w) = m ((c : Thread nD τ).loc main_arg0) (ix4 B ch H w) := by
  obtain ⟨e0, e1, e2, e3, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 8 + 1 * b.val = B.val; rw [e0]; omega
  | ⟨1, _⟩ => show win0_0.index t (1 : Fin 4) * 3 + 1 * ch.val = ch.val; rw [e1]; omega
  | ⟨2, _⟩ => show win0_0.index t (2 : Fin 4) * 64 + 1 * h.val = H.val; rw [e2]; omega
  | ⟨3, _⟩ => show win0_0.index t (3 : Fin 4) * 256 + 1 * w.val = w.val; rw [e3]; omega

/-- The staged prototype table is the whole table at every point. -/
theorem iblk1_at (c : Dev nD) (t : Fin cfg0.N) (p : Fin 32) (ch : Fin 3) :
    (iblk m c 1 t : Vec Ideal S32x3 .f32) (ix2 p ch) = m ((c : Thread nD τ).loc main_arg1) (ix2 p ch) := by
  obtain ⟨-, -, -, -, e4, e5, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 2) * 32 + 1 * p.val = p.val; rw [e4]; omega
  | ⟨1, _⟩ => show win0_1.index t (1 : Fin 2) * 3 + 1 * ch.val = ch.val; rw [e5]; omega

/-- The responses of image row `B` to prototype `p`, pixel by pixel, in the kernel's spelling. -/
def resp (c : Dev nD) (B : Fin 16) (p : Fin 32) : Fin 256 → Fin 256 → EReal :=
  fun h w => Cert.Spec.kerT Cert.Pay.cN (Cert.Spec.pix (m ((c : Thread nD τ).loc main_arg0)) B h w)
    (Cert.Spec.proto (m ((c : Thread nD τ).loc main_arg1)) p)

/-- Point `t`'s contribution at `(b, p)` is pixel-row block `t % 4`'s scaled sum of image row `8·(t / 4) + b`'s responses. -/
theorem tile_at (c : Dev nD) (t : Fin cfg0.N) (b : Fin 8) (p : Fin 32) (B : Fin 16) (hB : B.val = 8 * (t.val / 4) + b.val)
    (j : Fin 4) (hj : j.val = t.val % 4) :
    Cert.Spec.tile Cert.Pay.cN (iblk m c 0 t) (iblk m c 1 t) b p = Cert.Algebra.rowTile (resp m c B p) j := by
  unfold Cert.Spec.tile Cert.Algebra.rowTile resp
  refine congrArg (· * _) (Finset.sum_congr rfl fun h _ => Finset.sum_congr rfl fun w _ => ?_)
  refine congrArg₂ (Cert.Spec.kerT Cert.Pay.cN) (funext fun ch => ?_) (funext fun ch => ?_)
  · exact iblk0_at m c t b ch h w B _ hB (by show 64 * j.val + h.val = 64 * (t.val % 4) + h.val; rw [hj])
  · exact iblk1_at m c t p ch

/-- After a point that does not zero the block: what the point before left, plus this point's contribution. -/
theorem step_B (c : Dev nD) (n : ℕ) (hn : n < cfg0.N) (h0 : ¬n % 4 = 0) (b : Fin 8) (p : Fin 32) :
    outsAt0 m c n hn (ix2 b p) = outsAt0 m c (n - 1) (Nat.lt_of_le_of_lt (Nat.sub_le _ _) hn) (ix2 b p)
      + Cert.Spec.tile Cert.Pay.cN (iblk m c 0 ⟨n, hn⟩) (iblk m c 1 ⟨n, hn⟩) b p := by
  refine (congrFun (outsAt0_B m c ⟨n, hn⟩ h0) (ix2 b p)).trans ?_
  exact Cert.Pieces.out_B c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) _ (iblk m c 0 ⟨n, hn⟩) (iblk m c 1 ⟨n, hn⟩) _ b p

/-- After a point that zeroes the block: the zero word plus this point's contribution. -/
theorem step_A (c : Dev nD) (n : ℕ) (hn : n < cfg0.N) (h0 : n % 4 = 0) (b : Fin 8) (p : Fin 32) :
    outsAt0 m c n hn (ix2 b p) = Ideal.ofBits .f32 0x00000000#32
      + Cert.Spec.tile Cert.Pay.cN (iblk m c 0 ⟨n, hn⟩) (iblk m c 1 ⟨n, hn⟩) b p := by
  refine (congrFun (outsAt0_A m c ⟨n, hn⟩ h0) (ix2 b p)).trans ?_
  exact Cert.Pieces.out_A c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) _ (iblk m c 0 ⟨n, hn⟩) (iblk m c 1 ⟨n, hn⟩) b p

/-- What a writing-back point holds at `(b, p)`: zero plus the four pixel-row blocks' scaled sums, in order. -/
theorem acc_flush (c : Dev nD) (n : ℕ) (hn : n < cfg0.N) (h3 : n % 4 = 3) (b : Fin 8) (p : Fin 32) (B : Fin 16)
    (hB : B.val = 8 * (n / 4) + b.val) :
    outsAt0 m c n hn (ix2 b p)
      = (((Ideal.ofBits .f32 0x00000000#32 + Cert.Algebra.rowTile (resp m c B p) 0) + Cert.Algebra.rowTile (resp m c B p) 1)
          + Cert.Algebra.rowTile (resp m c B p) 2) + Cert.Algebra.rowTile (resp m c B p) 3 := by
  have hN : cfg0.N = 8 := N_0
  rw [step_B m c n hn (by omega) b p, step_B m c (n - 1) _ (by omega) b p, step_B m c (n - 1 - 1) _ (by omega) b p,
    step_A m c (n - 1 - 1 - 1) _ (by omega) b p]
  rw [tile_at m c ⟨n, hn⟩ b p B (by show B.val = 8 * (n / 4) + b.val; omega) 3 (by show 3 = n % 4; omega),
    tile_at m c ⟨n - 1, _⟩ b p B (by show B.val = 8 * ((n - 1) / 4) + b.val; omega) 2 (by show 2 = (n - 1) % 4; omega),
    tile_at m c ⟨n - 1 - 1, _⟩ b p B (by show B.val = 8 * ((n - 1 - 1) / 4) + b.val; omega) 1 (by show 1 = (n - 1 - 1) % 4; omega),
    tile_at m c ⟨n - 1 - 1 - 1, _⟩ b p B (by show B.val = 8 * ((n - 1 - 1 - 1) / 4) + b.val; omega) 0 (by show 0 = (n - 1 - 1 - 1) % 4; omega)]

/-! ## From the four contributions to the mean -/

/-- The result array the kernel ends with: the reference's mean of responses. -/
abbrev result (c : Dev nD) : Buf (Elt Ideal) ((c : Thread nD τ).loc main_v0) :=
  Cert.Spec.G (m ((c : Thread nD τ).loc main_arg0)) (m ((c : Thread nD τ).loc main_arg1))

/-- Image row `8·bi + k` as a row of the result (`bi < 2`, `k < 8`). -/
def rowOf (bi k : ℕ) : Fin 16 := ⟨(8 * bi + k) % 16, Nat.mod_lt _ (by decide)⟩

/-- An entry of the result array is in point `t`'s block iff each coordinate is in the block's range. -/
theorem mem_blk (t : Fin cfg0.N) (i : S16x32.Idx) :
    i ∈ ((cfg0.win 2).blk t).view.set ↔ ∀ a : Fin 2, win0_2.index t a * S8x32.size a ≤ (i a).val
      ∧ (i a).val < win0_2.index t a * S8x32.size a + S8x32.size a := by
  show i ∈ ((View.whole main_v0).slice (win0_2.rect t)).set ↔ _
  rw [View.set_slice_whole, Rect.mem_set_unit]
  exact Iff.rfl

/-- Every entry of the result array is written back: row `r` by the last point of image-row block `r / 8`. -/
theorem cover (i : S16x32.Idx) : ∃ t : Fin cfg0.N, (cfg0.win 2).flush t = true ∧ i ∈ ((cfg0.win 2).blk t).view.set := by
  have hN : cfg0.N = 8 := N_0
  have hi0 : (i 0).val < 16 := (i 0).isLt
  have hi1 : (i 1).val < 32 := (i 1).isLt
  have hlt : 4 * ((i 0).val / 8) + 3 < cfg0.N := by rw [hN]; omega
  refine ⟨⟨4 * ((i 0).val / 8) + 3, hlt⟩, (flush0_2 _).mpr (by show (4 * ((i 0).val / 8) + 3) % 4 = 3; omega), ?_⟩
  obtain ⟨-, -, -, -, -, -, e6, e7⟩ := idx_facts ⟨4 * ((i 0).val / 8) + 3, hlt⟩
  rw [mem_blk]
  intro a
  match a with
  | ⟨0, _⟩ =>
    show win0_2.index ⟨4 * ((i 0).val / 8) + 3, hlt⟩ (0 : Fin 2) * 8 ≤ (i 0).val
      ∧ (i 0).val < win0_2.index ⟨4 * ((i 0).val / 8) + 3, hlt⟩ (0 : Fin 2) * 8 + 8
    rw [e6]
    show (4 * ((i 0).val / 8) + 3) / 4 * 8 ≤ (i 0).val ∧ (i 0).val < (4 * ((i 0).val / 8) + 3) / 4 * 8 + 8
    omega
  | ⟨1, _⟩ =>
    show win0_2.index ⟨4 * ((i 0).val / 8) + 3, hlt⟩ (1 : Fin 2) * 32 ≤ (i 1).val
      ∧ (i 1).val < win0_2.index ⟨4 * ((i 0).val / 8) + 3, hlt⟩ (1 : Fin 2) * 32 + 32
    rw [e7]
    omega

section Finite

variable (hx : ∀ (c : Dev nD) (i : S16x3x256x256.Idx), ∃ r : ℝ, m ((c : Thread nD τ).loc main_arg0) i = (r : EReal))
variable (hP : ∀ (c : Dev nD) (i : S32x3.Idx), ∃ r : ℝ, m ((c : Thread nD τ).loc main_arg1) i = (r : EReal))
include hx hP

/-- For finite inputs the kernel's response at a pixel is the reference's. -/
theorem resp_eq (c : Dev nD) (B : Fin 16) (p : Fin 32) (h w : Fin 256) :
    resp m c B p h w = Cert.Spec.refT (Cert.Spec.pix (m ((c : Thread nD τ).loc main_arg0)) B h w)
      (Cert.Spec.proto (m ((c : Thread nD τ).loc main_arg1)) p) := by
  unfold resp
  rw [cN_eq]
  exact Cert.Algebra.kerT_eq_refT _ _ (fun k => hx c (ix4 B k h w)) (fun k => hP c (ix2 p k))

/-- … and a real number. -/
theorem resp_real (c : Dev nD) (B : Fin 16) (p : Fin 32) (h w : Fin 256) : ∃ r : ℝ, resp m c B p h w = (r : EReal) := by
  rw [resp_eq m hx hP c B p h w]
  exact Cert.Algebra.refT_real _ _ (fun k => hx c (ix4 B k h w)) (fun k => hP c (ix2 p k))

/-- What a writing-back point holds at `(b, p)` is the mean at `(8·(n / 4) + b, p)`. -/
theorem acc_eq_G (c : Dev nD) (n : ℕ) (hn : n < cfg0.N) (h3 : n % 4 = 3) (b : Fin 8) (p : Fin 32) :
    outsAt0 m c n hn (ix2 b p) = result m c (ix2 (rowOf (n / 4) b.val) p) := by
  have hN : cfg0.N = 8 := N_0
  have hB : (rowOf (n / 4) b.val).val = 8 * (n / 4) + b.val := by
    show (8 * (n / 4) + b.val) % 16 = 8 * (n / 4) + b.val
    have := b.isLt
    omega
  rw [acc_flush m c n hn h3 b p (rowOf (n / 4) b.val) hB,
    Cert.Algebra.mean_by_tiles _ (fun h w => resp_real m hx hP c (rowOf (n / 4) b.val) p h w)]
  show Ideal.div _ _ = Ideal.div (∑ h : Fin 256, ∑ w : Fin 256, Cert.Spec.refT
    (Cert.Spec.pix (m ((c : Thread nD τ).loc main_arg0)) (rowOf (n / 4) b.val) h w)
    (Cert.Spec.proto (m ((c : Thread nD τ).loc main_arg1)) p)) _
  refine congrArg (fun s => Ideal.div s (Ideal.ofBits .f32 0x47800000#32))
    (Finset.sum_congr rfl fun h _ => Finset.sum_congr rfl fun w _ => ?_)
  exact resp_eq m hx hP c (rowOf (n / 4) b.val) p h w

/-- The staged output block at a writing-back point, as one function of its entries. -/
theorem outs_flush (c : Dev nD) (t : Fin cfg0.N) (h3 : t.val % 4 = 3) :
    outsAt0 m c t.val t.isLt
      = fun y : S8x32.Idx => result m c (ix2 (rowOf (t.val / 4) (y 0).val) (⟨(y 1).val, (y 1).isLt⟩ : Fin 32)) := by
  funext y
  obtain ⟨b, p, rfl⟩ : ∃ (b : Fin 8) (p : Fin 32), y = ix2 b p := ⟨y 0, y 1, eq_ix2 y⟩
  exact acc_eq_G m hx hP c t.val t.isLt h3 b p

/-- What a writing-back point writes back is its block of the mean. -/
theorem flushed_eq (c : Dev nD) (t : Fin cfg0.N) (hf : (cfg0.win 2).flush t = true) :
    (dats m 0 c).flushed 2 t = ((cfg0.win 2).blk t).view.read (Elt Ideal) (result m c) := by
  have hN : cfg0.N = 8 := N_0
  have h3 : t.val % 4 = 3 := (flush0_2 t).mp hf
  obtain ⟨-, -, -, -, -, -, e6, e7⟩ := idx_facts t
  rw [Cert.KernelIdeal.Value.flushed2]
  show (cfg0.win 2).cut (grid0.coords t) (outsAt0 m c t.val t.isLt) = _
  rw [outs_flush m hx hP c t h3]
  funext y
  show result m c (ix2 (rowOf (t.val / 4) (y 0).val) (⟨(y 1).val, (y 1).isLt⟩ : Fin 32))
    = result m c (((cfg0.win 2).blk t).view.emb y)
  refine congrArg (result m c) (funext fun a => Fin.ext ?_)
  match a with
  | ⟨0, _⟩ =>
    show (8 * (t.val / 4) + (y 0).val) % 16 = win0_2.index t (0 : Fin 2) * 8 + 1 * (y 0).val
    rw [e6]
    have h8 : (y 0).val < 8 := (y 0).isLt
    have := t.isLt
    omega
  | ⟨1, _⟩ =>
    show (y 1).val = win0_2.index t (1 : Fin 2) * 32 + 1 * (y 1).val
    rw [e7]
    omega

/-- So the result array ends holding the mean of responses. -/
theorem final (c : Dev nD) : (dats m 0 c).arrAt 2 cfg0.N = result m c :=
  (dats m 0 c).arrAt_eq_of_cover 2 (result m c) (fun t hf => flushed_eq m hx hP c t hf) (cover)

/-- The kernel's run, read: the result array at the mean of responses, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hx hP c), (h c).2⟩)
    (Cert.KernelIdeal.Value.run_blocks m ρ)

end Finite

end Cert.KernelValue

end
-- ==== Proof.RefRead.lean ====
/-
  The reference program read as the specification: its last stage, as a function of the two argument arrays, is
  `Cert.Spec.G`. The one operation the generated reading leaves unread — the sum over the image's two axes — is read
  here by re-indexing the indices that drop to `(b, p)` as the pairs `(h, w)`; every other stage is read at an index
  by the generated lemmas, outermost first, down to the two arguments at `(b, c, h, w)` and `(p, c)`.
-/
import proofs.«122700_j65910568124951_2_alg».proof.Proof.Gen.ReferenceIdeal.Read
import proofs.«122700_j65910568124951_2_alg».proof.Proof.Spec

noncomputable section

namespace Cert.RefValue

open Cert.ReferenceIdeal Cert.ReferenceIdeal.Gen Cert.ReferenceIdeal.Read
open Idealize.ShloMosaic Idealize.ShloMosaic.ValueIdx Idealize.ShloMosaic.StableHlo

/-- The indices of a `[16, 32, 256, 256]` array that drop to `j` when axes 2 and 3 are removed are the
    `(j 0, j 1, h, w)`; summing over them is the double sum over `h` and `w`. -/
theorem sum_filter_drop_23 (h' : S16x32x256x256.ReducesTo [2, 3] S16x32) (y : S16x32x256x256.Idx → EReal)
    (j : S16x32.Idx) :
    ∑ i ∈ Finset.univ.filter (fun i => h'.drop i = j), y i
      = ∑ h : Fin 256, ∑ w : Fin 256, y (ix4 (j 0) (j 1) h w) := by
  have d0 : ∀ i : S16x32x256x256.Idx, ((h'.drop i 0 : Fin _) : Nat) = (i 0 : Nat) := fun i =>
    Shape.ReducesTo.drop_apply_val_of_eq h' i 0 0
  have d1 : ∀ i : S16x32x256x256.Idx, ((h'.drop i 1 : Fin _) : Nat) = (i 1 : Nat) := fun i =>
    Shape.ReducesTo.drop_apply_val_of_eq h' i 1 1
  have back : ∀ i : S16x32x256x256.Idx, h'.drop i = j → ix4 (j 0) (j 1) (i 2) (i 3) = i := by
    intro i hj
    funext a
    match a with
    | ⟨0, _⟩ => exact Fin.ext (by rw [← hj]; exact d0 i)
    | ⟨1, _⟩ => exact Fin.ext (by rw [← hj]; exact d1 i)
    | ⟨2, _⟩ => rfl
    | ⟨3, _⟩ => rfl
  rw [← Fintype.sum_prod_type' (f := fun (h : Fin 256) (w : Fin 256) => y (ix4 (j 0) (j 1) h w))]
  refine Finset.sum_nbij' (fun i => (i 2, i 3)) (fun q => ix4 (j 0) (j 1) q.1 q.2) ?_ ?_ ?_ ?_ ?_
  · intro i _; exact Finset.mem_univ _
  · intro q _
    refine Finset.mem_filter.2 ⟨Finset.mem_univ _, ?_⟩
    funext c
    match c with
    | ⟨0, _⟩ => exact Fin.ext (d0 _)
    | ⟨1, _⟩ => exact Fin.ext (d1 _)
  · intro i hi; exact back i (Finset.mem_filter.1 hi).2
  · intro q _; rfl
  · intro i hi; exact congrArg y (back i (Finset.mem_filter.1 hi).2).symm

/-- The sum over axes 2 and 3 (`%13`) read at an index: the initial value plus the double sum over the image's
    rows and columns of the summed array at `(j 0, j 1, h, w)`. -/
theorem val_main_v13_apply (x0 : (⟨S16x3x256x256, .f32⟩ : BufTy).Contents (Elt Ideal))
    (x1 : (⟨S32x3, .f32⟩ : BufTy).Contents (Elt Ideal)) (j : S16x32.Idx) :
    val_main_v13 (F := Ideal) x0 x1 j
      = (val_main_cst_2 (F := Ideal)) (Shape.Idx.first h_S_)
        + ∑ h : Fin 256, ∑ w : Fin 256, (val_main_v12 (F := Ideal) x0 x1) (ix4 (j 0) (j 1) h w) := by
  unfold val_main_v13
  generalize val_main_v12 (F := Ideal) x0 x1 = y0
  simp only [Host.reduceAdd, Ideal.hostReduceAdd_def]
  unfold Ideal.hostReduceAdd
  rw [sum_filter_drop_23]

/-- One pixel's response (`%12`) at `(b, p, h, w)` is the specification's `refT` of the pixel's three channel
    values and the prototype's. -/
theorem val_main_v12_eq_refT (x0 : (⟨S16x3x256x256, .f32⟩ : BufTy).Contents (Elt Ideal))
    (x1 : (⟨S32x3, .f32⟩ : BufTy).Contents (Elt Ideal)) (b : Fin 16) (p : Fin 32) (h w : Fin 256) :
    val_main_v12 (F := Ideal) x0 x1 (ix4 b p h w)
      = Cert.Spec.refT (Cert.Spec.pix x0 b h w) (Cert.Spec.proto x1 p) := by
  rw [val_main_v12_apply, val_main_v11_apply, val_main_v10_apply, val_main_cst_1_apply, val_main_v9_apply,
    val_main_v8_apply, val_main_v7_apply, val_main_cst_0_apply, val_main_v6_apply, val_main_cst_apply]
  unfold Cert.Spec.refT
  simp only [Ideal.hostUnary_exp_def, Ideal.hostDivf_def, Ideal.hostNegf_def, Ideal.negf_def, Ideal.hostPowf_def,
    Ideal.ofBits_def, Ideal.ofBits_zero_f32, zero_add]
  refine congrArg Ideal.exp (congrArg (fun t => Ideal.div (-(Ideal.pow t _)) _) (Finset.sum_congr rfl fun k _ => ?_))
  rw [val_main_v5_apply, val_main_v4_apply, val_main_v2_apply, val_main_v0_apply, val_main_v3_apply, val_main_v1_apply]
  simp only [Ideal.subf_def, Ideal.mulf_def]
  have e0 : idx_main_v0 (idx_main_v2 (idx_main_v6 (ix4 b p h w) k)) = ix4 b k h w :=
    funext fun a => Fin.ext (by match a with | ⟨0, _⟩ => rfl | ⟨1, _⟩ => rfl | ⟨2, _⟩ => rfl | ⟨3, _⟩ => rfl)
  have e1 : idx_main_v1 (idx_main_v3 (idx_main_v6 (ix4 b p h w) k)) = ix2 p k :=
    funext fun a => Fin.ext (by match a with | ⟨0, _⟩ => rfl | ⟨1, _⟩ => rfl)
  rw [e0, e1]
  rfl

/-- The reference's last stage is the specification's `G` of the two argument arrays. -/
theorem ref_eq_G (x : (⟨S16x3x256x256, .f32⟩ : BufTy).Contents (Elt Ideal))
    (P : (⟨S32x3, .f32⟩ : BufTy).Contents (Elt Ideal)) :
    val_main_v15 (F := Ideal) x P = Cert.Spec.G x P := by
  funext j
  obtain ⟨b, p, rfl⟩ : ∃ b p, j = ix2 b p := ⟨j 0, j 1, eq_ix2 j⟩
  rw [val_main_v15_apply, val_main_v14_apply, val_main_cst_3_apply, val_main_v13_apply, val_main_cst_2_apply]
  unfold Cert.Spec.G
  simp only [Ideal.hostDivf_def, Ideal.ofBits_def, Ideal.ofBits_zero_f32, zero_add]
  refine congrArg (fun t => Ideal.div t _) (Finset.sum_congr rfl fun h _ => Finset.sum_congr rfl fun w _ => ?_)
  exact val_main_v12_eq_refT x P b p h w

end Cert.RefValue

end
-- ==== Proof.LibFactoredContract.lean ====
/-
  Two ways to contract a row with a low-rank weight, on the extended reals.

  For a row `a` over `ι`, a factor `v` over `κ × ι` and a weight `w` over `κ`, all of whose entries are REAL
  numbers (no `±∞`), projecting the row first and then weighting,

      ∑ r, (∑ i, a i * v r i) * w r,

  equals contracting the row with the materialised weight `∑ r, w r * v r i`,

      ∑ i, a i * ∑ r, w r * v r i.

  On the reals this is distributivity and an exchange of the two finite sums. On the extended reals distributivity
  fails at the infinities, so the statement asks that every entry be real; the proof names the real witnesses, moves
  the coercion `ℝ → EReal` outside the sums and products, and is then the real identity.
-/
import Mathlib.Data.EReal.Basic
import Mathlib.Data.EReal.Operations
import Mathlib.Algebra.BigOperators.Ring.Finset
import Mathlib.Algebra.BigOperators.Group.Finset.Sigma
import Mathlib.Tactic.Ring

namespace Cert.Lib

open Finset

/-- An extended real that is a real number: neither `+∞` nor `-∞`. -/
def IsRealVal (x : EReal) : Prop := x ≠ ⊤ ∧ x ≠ ⊥

theorem IsRealVal.exists_coe {x : EReal} (h : IsRealVal x) : ∃ r : ℝ, x = (r : EReal) :=
  ⟨x.toReal, (EReal.coe_toReal h.1 h.2).symm⟩

theorem isRealVal_coe (r : ℝ) : IsRealVal (r : EReal) := ⟨EReal.coe_ne_top r, EReal.coe_ne_bot r⟩

/-- The product of two real values is a real value. -/
theorem IsRealVal.mul {x y : EReal} (hx : IsRealVal x) (hy : IsRealVal y) : IsRealVal (x * y) := by
  obtain ⟨a, rfl⟩ := hx.exists_coe
  obtain ⟨b, rfl⟩ := hy.exists_coe
  rw [← EReal.coe_mul]; exact isRealVal_coe _

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Projecting a row through the factor `v` and then weighting by `w` is contracting it with the materialised
    weight, when every entry is real. -/
theorem factored_contract {ι κ : Type*} [Fintype ι] [Fintype κ] (a : ι → EReal) (v : κ → ι → EReal) (w : κ → EReal)
    (ha : ∀ i, IsRealVal (a i)) (hv : ∀ r i, IsRealVal (v r i)) (hw : ∀ r, IsRealVal (w r)) :
    ∑ r, (∑ i, a i * v r i) * w r = ∑ i, a i * ∑ r, w r * v r i := by
  choose a' ha' using fun i => (ha i).exists_coe
  choose v' hv' using fun r i => (hv r i).exists_coe
  choose w' hw' using fun r => (hw r).exists_coe
  simp only [ha', hv', hw', ← EReal.coe_mul, ← coe_finset_sum]
  congr 1
  simp only [Finset.sum_mul, Finset.mul_sum]
  rw [Finset.sum_comm]
  refine Finset.sum_congr rfl fun i _ => Finset.sum_congr rfl fun r _ => ?_
  ring

end Cert.Lib
-- ==== Proof.LibFiniteDecode.lean ====
/-
  Reading "every entry is finite" back out of a printed precondition, and carrying it through a concatenation.

  A precondition `jnp.all(jnp.abs(x) < inf)` prints as a reduction by `and`, from the constant `1`, of the
  comparison `|x| < 0x7F800000` taken entry by entry; over the extended reals the pattern `0x7F800000` is `+∞` and
  `|x|` is `max x (-x)`. If the reduction came out `1` then every comparison did, and `max x (-x) < +∞` says that
  `x` is neither `+∞` nor `-∞`: a real number.

  A concatenation reads every one of its entries from one of its pieces, so any property every entry of every piece has
  (being real, in particular) every entry of the concatenation has.
-/
import Idealize.ShloMosaic.Lib.ReduceAll
import Idealize.ShloMosaic.Lib.ValueIdx
import Idealize.ShloMosaic.PureOps.Ideal.Laws
import proofs.«122700_j65910568124951_2_alg».proof.Proof.LibFactoredContract

noncomputable section

namespace Cert.Lib

open Idealize.ShloMosaic Idealize.ShloMosaic.ValueIdx

/-- The scalar shape: what `jnp.all` reduces into. -/
abbrev S0 : Shape := ⟨0, ![]⟩

/-- It has one index. -/
instance : Subsingleton S0.Idx := ⟨fun _ _ => funext fun d => d.elim0⟩

/-- The f32 pattern `0x7F800000` denotes `+∞`. -/
theorem ofBits_inf_f32 : Ideal.ofBits .f32 0x7F800000#32 = ⊤ := by simp [Ideal.ofBits, Ideal.ieee]

/-- An extended real whose absolute value `max x (-x)` compares below `+∞` is a real number. -/
theorem isRealVal_of_abs_lt_top (x : EReal) (h : Ideal.cmp .olt (max x (-x)) ⊤ = 1#1) : IsRealVal x := by
  have h' : max x (-x) < ⊤ := by
    by_contra hn
    simp [Ideal.cmp, hn] at h
  constructor
  · rintro rfl; simp at h'
  · rintro rfl; simp at h'

/-- `jnp.all(jnp.abs(x) < inf)` read back: if the printed reduction is `1`, every entry of `x` is a real number. -/
theorem isRealVal_of_all_abs_lt_inf {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi
        (cmpf .olt (Host.absf x) (broadcastInDim s ![] hb (constant (F := Ideal) S0 .f32 0x7F800000#32)))
        (constantI S0 1 1#1) hr hu ix0 = 1#1)
    (i : s.Idx) : IsRealVal (x i) := by
  have h := Host.reduce_andi_all _ _ hr hu ix0 e i
  refine isRealVal_of_abs_lt_top (x i) ?_
  rw [← ofBits_inf_f32]
  exact h

/-- Whatever holds of every entry of every piece holds of every entry of their concatenation. -/
theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

end Cert.Lib

end
-- ==== Proof.Finite.lean ====
/-
  The printed precondition says every input entry is a real number.

  The predicate is `jnp.all(jnp.abs(x) < inf) & jnp.all(jnp.abs(P) < inf)`: the conjunction of two reductions by
  `and`. If the conjunction is `1` then both reductions are, and a reduction by `and` that is `1` makes every
  compared entry `1`; over the extended reals `|v| < +∞` says that `v` is neither `+∞` nor `-∞`, a real number.
-/
import proofs.«122700_j65910568124951_2_alg».proof.Proof.Gen.Pre_finite_inputs
import proofs.«122700_j65910568124951_2_alg».proof.Proof.LibFiniteDecode
import Idealize.ShloMosaic.Lib.Affine

noncomputable section

namespace Cert.Finite

open Idealize.ShloMosaic Idealize.ShloMosaic.ValueIdx Cert.Lib

/-- If the printed precondition evaluates to `1` on `x` and `P`, every entry of `x` and of `P` is a real number. -/
theorem real_of_pre [Cert.Pre_finite_inputs.Facts]
    (x : FVec Ideal Cert.Pre_finite_inputs.S16x3x256x256 .f32) (P : FVec Ideal Cert.Pre_finite_inputs.S32x3 .f32)
    (h : Cert.Pre_finite_inputs.fn (F := Ideal) x P = (fun _ => 1#1)) :
    (∀ i, ∃ r : ℝ, x i = (r : EReal)) ∧ (∀ i, ∃ r : ℝ, P i = (r : EReal)) := by
  have h0 := congrFun h ix0
  dsimp only [Cert.Pre_finite_inputs.fn, andi] at h0
  obtain ⟨hx, hP⟩ := IntOp.andi_eq_one.1 h0
  exact ⟨fun i => (isRealVal_of_all_abs_lt_inf x _ _ _ hx i).exists_coe,
    fun i => (isRealVal_of_all_abs_lt_inf P _ _ _ hP i).exists_coe⟩

end Cert.Finite

end
-- ==== Proof.lean ====
/-
  The certificate of a Gaussian-response kernel against its jnp reference.

  For `x : f32[16, 3, 256, 256]` (images, channels first) and `P : f32[32, 3]` (prototype pixels) both programs compute,
  at image `b` and prototype `p`, the mean over the 256 × 256 pixels of `exp (-‖x[b, :, h, w] − P[p, :]‖₂ / D)`, `D` the
  bandwidth word `0x3F19999A`.  The reference forms the differences, squares and sums them, raises the sum to the
  power ½, negates, divides by `D`, exponentiates, sums over the pixels and divides by `65536`.  The kernel expands the
  square, `‖u − v‖² = Σu² + Σv² − 2Σuv`, clamps it at zero, takes the square root, multiplies by a folded constant
  that the idealization names `−1 / D` exactly, and accumulates, over a grid of 2 image-row blocks × 4 pixel-row
  blocks, each tile's sum scaled by `2⁻¹⁶` into an output block that is zeroed at the first pixel-row block and
  written back after the last.

  Over the extended reals the two agree once every input is a real number: the expansion of the square, the
  vanishing of the clamp, `√r = r ^ ½` for `r ≥ 0`, `a / D = a · (1 / D)`, and the distribution of the `2⁻¹⁶` over the
  four partial sums all hold on the reals, and the precondition says every input is finite.

  The modules: `Spec` states the mathematics; `RefRead` reads the reference's stages down to it; `Layout` and `Pay`
  read the kernel's four stores at an entry; `Pieces` reads what one grid point leaves in the staged output block;
  `Final` follows the block over the grid to the result array; `Algebra` is the agreement on the reals and
  `Finite` the precondition's decoding.  The three frames and the word-level kernel's facts are the generated ones.
-/
import proofs.«122700_j65910568124951_2_alg».proof.Defs
import proofs.«122700_j65910568124951_2_alg».proof.Proof.Gen.Kernel
import proofs.«122700_j65910568124951_2_alg».proof.Proof.Gen.Kernel.Skeleton
import proofs.«122700_j65910568124951_2_alg».proof.Proof.Gen.Kernel.Launch
import proofs.«122700_j65910568124951_2_alg».proof.Proof.Gen.Kernel.Points
import proofs.«122700_j65910568124951_2_alg».proof.Proof.Gen.Kernel.Frame
import proofs.«122700_j65910568124951_2_alg».proof.Proof.Gen.KernelIdeal
import proofs.«122700_j65910568124951_2_alg».proof.Proof.Gen.KernelIdeal.Skeleton
import proofs.«122700_j65910568124951_2_alg».proof.Proof.Gen.KernelIdeal.Launch
import proofs.«122700_j65910568124951_2_alg».proof.Proof.Gen.KernelIdeal.Points
import proofs.«122700_j65910568124951_2_alg».proof.Proof.Gen.KernelIdeal.Frame
import proofs.«122700_j65910568124951_2_alg».proof.Proof.Gen.ReferenceIdeal
import proofs.«122700_j65910568124951_2_alg».proof.Proof.Gen.Pre_finite_inputs
import proofs.«122700_j65910568124951_2_alg».proof.Proof.Gen.KernelIdeal.Value
import proofs.«122700_j65910568124951_2_alg».proof.Proof.Gen.ReferenceIdeal.Run
import proofs.«122700_j65910568124951_2_alg».proof.Proof.Gen.ReferenceIdeal.Read
import proofs.«122700_j65910568124951_2_alg».proof.Proof.Final
import proofs.«122700_j65910568124951_2_alg».proof.Proof.RefRead
import proofs.«122700_j65910568124951_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization, made at each of the four chunks: the folded constant's word is read as the
    exact rational `−8388608 / 5033165`, the negated reciprocal of the bandwidth word's value. -/
theorem preserves : Cert.preserves_Kernel_KernelIdeal :=
  have st := IdealRules.named_const.statement Cert.KernelIdeal.κ "neg_inv_denom" .f32 0xBFD55555#32
    ((-8388608 / 5033165 : ℝ) : EReal) rfl
  ⟨st, st, st, st⟩

/-- From memories that agree on finite arguments the two idealized programs end with the same result array: the
    kernel's is the mean of responses (`KernelValue.run`), the reference's last stage is the same function
    (`RefValue.ref_eq_G`). -/
theorem algebraic : Cert.algebraic_KernelIdeal_ReferenceIdeal := by
  intro m ρ m' ρ' hpre hagree
  have hx : ∀ (c : Dev Cert.KernelIdeal.nD) (i : Cert.KernelIdeal.S16x3x256x256.Idx), ∃ r : ℝ,
      m ((c : Thread Cert.KernelIdeal.nD Cert.KernelIdeal.τ).loc Cert.KernelIdeal.main_arg0) i = (r : EReal) :=
    fun c => (Cert.Finite.real_of_pre _ _ (hpre c)).1
  have hP : ∀ (c : Dev Cert.KernelIdeal.nD) (i : Cert.KernelIdeal.S32x3.Idx), ∃ r : ℝ,
      m ((c : Thread Cert.KernelIdeal.nD Cert.KernelIdeal.τ).loc Cert.KernelIdeal.main_arg1) i = (r : EReal) :=
    fun c => (Cert.Finite.real_of_pre _ _ (hpre c)).2
  refine ⟨fun c => Cert.KernelValue.result m c, Cert.KernelValue.run m ρ hx hP, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.RefValue.ref_eq_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
